-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x200 : Shape := ⟨2, ![128, 200]⟩
abbrev S200 : Shape := ⟨1, ![200]⟩
abbrev S200x40 : Shape := ⟨2, ![200, 40]⟩
abbrev S40 : Shape := ⟨1, ![40]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_
  bcast_S_S200x40 : S_.BroadcastsInDim S200x40 (![] : Fin 0 → Fin S200x40.rank)
  reducesTo_S200x40_S_d0_1 : S200x40.ReducesTo [0, 1] S_
  bcast_S_S40 : S_.BroadcastsInDim S40 (![] : Fin 0 → Fin S40.rank)
  reducesTo_S40_S_d0 : S40.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : FVec F S200x40 .f32) (main_arg8 : FVec F S40 .f32) (main_arg11 : FVec F S1600000 .f32) (main_v33 : IVec S_ 1) : IVec S_ 1 :=
  let main_v34 : FVec F S200x40 .f32 := Host.absf main_arg7
  let main_cst_12 : FVec F S_ .f32 := constant S_ .f32 0x7F800000#32
  let main_v35 : FVec F S200x40 .f32 := broadcastInDim S200x40 ![] bcast_S_S200x40 main_cst_12
  let main_v36 : IVec S200x40 1 := cmpf .olt main_v34 main_v35
  let main_c_13 : IVec S_ 1 := constantI S_ 1 1#1
  let main_v37 : IVec S_ 1 := (fun x v => Host.reduce IntOp.andi x v reducesTo_S200x40_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S1600000 .f32 := Host.absf main_arg11
  let main_cst_16 : FVec F S_ .f32 := constant S_ .f32 0x7F800000#32
  let main_v45 : FVec F S1600000 .f32 := broadcastInDim S1600000 ![] bcast_S_S1600000 main_cst_16
  let main_v46 : IVec S1600000 1 := cmpf .olt main_v44 main_v45
  let main_c_17 : IVec S_ 1 := constantI S_ 1 1#1
  let main_v47 : IVec S_ 1 := (fun x v => Host.reduce IntOp.andi x v reducesTo_S1600000_S_d0 h_S_) main_v46 main_c_17
  let main_v48 : IVec S_ 1 := andi main_v43 main_v47
  main_v48

def fn_part1 {F : FTy → Type} [FloatOps F] (main_arg4 : FVec F S128 .f32) (main_arg5 : FVec F S128x200 .f32) (main_arg6 : FVec F S200 .f32) (main_arg7 : FVec F S200x40 .f32) (main_arg8 : FVec F S40 .f32) (main_arg11 : FVec F S1600000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x200 .f32 := Host.absf main_arg5
  let main_cst_8 : FVec F S_ .f32 := constant S_ .f32 0x7F800000#32
  let main_v25 : FVec F S128x200 .f32 := broadcastInDim S128x200 ![] bcast_S_S128x200 main_cst_8
  let main_v26 : IVec S128x200 1 := cmpf .olt main_v24 main_v25
  let main_c_9 : IVec S_ 1 := constantI S_ 1 1#1
  let main_v27 : IVec S_ 1 := (fun x v => Host.reduce IntOp.andi x v reducesTo_S128x200_S_d0_1 h_S_) main_v26 main_c_9
  let main_v28 : IVec S_ 1 := andi main_v23 main_v27
  let main_v29 : FVec F S200 .f32 := Host.absf main_arg6
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg7 main_arg8 main_arg11 main_v33

def fn {F : FTy → Type} [FloatOps F] (main_arg0 : FVec F S100000x256 .f32) (main_arg1 : FVec F S256x128 .f32) (main_arg2 : FVec F S128 .f32) (main_arg3 : FVec F S128x128 .f32) (main_arg4 : FVec F S128 .f32) (main_arg5 : FVec F S128x200 .f32) (main_arg6 : FVec F S200 .f32) (main_arg7 : FVec F S200x40 .f32) (main_arg8 : FVec F S40 .f32) (main_arg9 : IVec S1600000 32) (main_arg10 : IVec S1600000 32) (main_arg11 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg11 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x200 : Shape := ⟨2, ![128, 200]⟩
abbrev S200 : Shape := ⟨1, ![200]⟩
abbrev S200x40 : Shape := ⟨2, ![200, 40]⟩
abbrev S40 : Shape := ⟨1, ![40]⟩
abbrev S1600000 : Shape := ⟨1, ![1600000]⟩
abbrev S_ : Shape := ⟨0, ![]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S1600000x128 : Shape := ⟨2, ![1600000, 128]⟩
abbrev S10000x128 : Shape := ⟨2, ![10000, 128]⟩
abbrev S1x200 : Shape := ⟨2, ![1, 200]⟩
abbrev S100000x200 : Shape := ⟨2, ![100000, 200]⟩
abbrev S5000x200 : Shape := ⟨2, ![5000, 200]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 58
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x200, .f32⟩
  | .hbm, ⟨6, _⟩ => ⟨S200, .f32⟩
  | .hbm, ⟨7, _⟩ => ⟨S200x40, .f32⟩
  | .hbm, ⟨8, _⟩ => ⟨S40, .f32⟩
  | .hbm, ⟨9, _⟩ => ⟨S1600000, .i32⟩
  | .hbm, ⟨10, _⟩ => ⟨S1600000, .i32⟩
  | .hbm, ⟨11, _⟩ => ⟨S1600000, .f32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S100000x128, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S1600000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S1x200, .f32⟩
  | .hbm, ⟨55, _⟩ => ⟨S100000x200, .f32⟩
  | .hbm, ⟨56, _⟩ => ⟨S1x40, .f32⟩
  | .hbm, ⟨57, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S5000x128, .f32⟩
  | .local _ .vmem, ⟨23, _⟩ => ⟨S5000x128, .f32⟩
  | .local _ .vmem, ⟨24, _⟩ => ⟨S128x200, .f32⟩
  | .local _ .vmem, ⟨25, _⟩ => ⟨S1x200, .f32⟩
  | .local _ .vmem, ⟨26, _⟩ => ⟨S5000x200, .f32⟩
  | .local _ .vmem, ⟨27, _⟩ => ⟨S5000x200, .f32⟩
  | .local _ .vmem, ⟨28, _⟩ => ⟨S5000x200, .f32⟩
  | .local _ .vmem, ⟨29, _⟩ => ⟨S5000x200, .f32⟩
  | .local _ .vmem, ⟨30, _⟩ => ⟨S200x40, .f32⟩
  | .local _ .vmem, ⟨31, _⟩ => ⟨S1x40, .f32⟩
  | .local _ .vmem, ⟨32, _⟩ => ⟨S5000x40, .f32⟩
  | .local _ .vmem, ⟨33, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x200 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x200 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x200 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x200 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S200x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S128 : S_.BroadcastsInDim S128 (![] : Fin 0 → Fin S128.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S200_S1x200 : S200.ShapeCasts S1x200
  inb_S128x200_S128x200_0_0 : ∀ a, (![0, 0] : Fin 2 → Nat) a + S128x200.size a ≤ S128x200.size a
  h_S128x200 : 0 < S128x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S5000x200 : S1x200.Broadcasts S5000x200
  inb_S5000x200_S5000x200_0_0 : ∀ a, (![0, 0] : Fin 2 → Nat) a + S5000x200.size a ≤ S5000x200.size a
  h_S5000x200 : 0 < S5000x200.numel
  shapeCasts_S40_S1x40 : S40.ShapeCasts S1x40
  shapeCasts_S5000x200_S5000x200 : S5000x200.ShapeCasts S5000x200
  inb_S200x40_S200x40_0_0 : ∀ a, (![0, 0] : Fin 2 → Nat) a + S200x40.size a ≤ S200x40.size a
  h_S200x40 : 0 < S200x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x200_S5000x200_1_0_0_1_n_n_wf : DotDims.WF S5000x128 S128x200 S5000x200 [1] [0] [0] [1] [] []
  dot_S5000x200_S200x40_S5000x40_1_0_0_1_n_n_wf : DotDims.WF S5000x200 S200x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x200.size a ≤ S128x200.size a
  hwx4_1 : ∀ i : grid4.Coords, EltTy.bits .f32 = 32 ∨ (Rect.block (s := S128x200) S128x200.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x200.size a ≤ S1x200.size a
  hwx4_2 : ∀ i : grid4.Coords, EltTy.bits .f32 = 32 ∨ (Rect.block (s := S1x200) S1x200.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x200.size a ≤ S100000x200.size a
  hwx4_3 : ∀ i : grid4.Coords, EltTy.bits .f32 = 32 ∨ (Rect.block (s := S100000x200) S5000x200.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x200.size a ≤ S100000x200.size a
  hwx5_0 : ∀ i : grid5.Coords, EltTy.bits .f32 = 32 ∨ (Rect.block (s := S100000x200) S5000x200.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S200x40.size a ≤ S200x40.size a
  hwx5_1 : ∀ i : grid5.Coords, EltTy.bits .f32 = 32 ∨ (Rect.block (s := S200x40) S200x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S100000x40.size a
  hwx5_3 : ∀ i : grid5.Coords, EltTy.bits .f32 = 32 ∨ (Rect.block (s := S100000x40) S5000x40.size (cc5_transform_3 i) (hinb5_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x200_S5000x200_1_0_0_1_n_n : DotDims S5000x128 S128x200 S5000x200 where
  lhsContracting := [1]
  rhsContracting := [0]
  lhsNonContracting := [0]
  rhsNonContracting := [1]
  lhsBatch := []
  rhsBatch := []
  wf := dot_S5000x128_S128x200_S5000x200_1_0_0_1_n_n_wf
def dot_S5000x200_S200x40_S5000x40_1_0_0_1_n_n : DotDims S5000x200 S200x40 S5000x40 where
  lhsContracting := [1]
  rhsContracting := [0]
  lhsNonContracting := [0]
  rhsNonContracting := [1]
  lhsBatch := []
  rhsBatch := []
  wf := dot_S5000x200_S200x40_S5000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v32) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v34) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x200.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x200.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S5000x200.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v36) S5000x200.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S200x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v37) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v38) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x200 : Shape := ⟨2, ![128, 200]⟩
abbrev S200 : Shape := ⟨1, ![200]⟩
abbrev S200x40 : Shape := ⟨2, ![200, 40]⟩
abbrev S40 : Shape := ⟨1, ![40]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x200 : Shape := ⟨2, ![100000, 200]⟩
abbrev S1x200 : Shape := ⟨2, ![1, 200]⟩
abbrev S100000x40 : Shape := ⟨2, ![100000, 40]⟩
abbrev S1x40 : Shape := ⟨2, ![1, 40]⟩

abbrev nBuf : Space → Nat
  | .hbm => 105
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x200, .f32⟩
  | .hbm, ⟨6, _⟩ => ⟨S200, .f32⟩
  | .hbm, ⟨7, _⟩ => ⟨S200x40, .f32⟩
  | .hbm, ⟨8, _⟩ => ⟨S40, .f32⟩
  | .hbm, ⟨9, _⟩ => ⟨S1600000, .i32⟩
  | .hbm, ⟨10, _⟩ => ⟨S1600000, .i32⟩
  | .hbm, ⟨11, _⟩ => ⟨S1600000, .f32⟩
  | .hbm, ⟨12, _⟩ => ⟨S100000x128, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .i1⟩
  | .hbm, ⟨35, _⟩ => ⟨S_, .f32⟩
  | .hbm, ⟨36, _⟩ => ⟨S100000x128, .f32⟩
  | .hbm, ⟨37, _⟩ => ⟨S100000x128, .i1⟩
  | .hbm, ⟨38, _⟩ => ⟨S_, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .i1⟩
  | .hbm, ⟨70, _⟩ => ⟨S_, .f32⟩
  | .hbm, ⟨71, _⟩ => ⟨S100000x128, .f32⟩
  | .hbm, ⟨72, _⟩ => ⟨S100000x128, .i1⟩
  | .hbm, ⟨73, _⟩ => ⟨S_, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x200, .f32⟩
  | .hbm, ⟨83, _⟩ => ⟨S1x200, .f32⟩
  | .hbm, ⟨84, _⟩ => ⟨S100000x200, .f32⟩
  | .hbm, ⟨85, _⟩ => ⟨S100000x200, .f32⟩
  | .hbm, ⟨86, _⟩ => ⟨S_, .f32⟩
  | .hbm, ⟨87, _⟩ => ⟨S100000x200, .f32⟩
  | .hbm, ⟨88, _⟩ => ⟨S100000x200, .i1⟩
  | .hbm, ⟨89, _⟩ => ⟨S_, .f32⟩
  | .hbm, ⟨90, _⟩ => ⟨S100000x200, .f32⟩
  | .hbm, ⟨91, _⟩ => ⟨S100000x200, .i1⟩
  | .hbm, ⟨92, _⟩ => ⟨S_, .f32⟩
  | .hbm, ⟨93, _⟩ => ⟨S_, .f32⟩
  | .hbm, ⟨94, _⟩ => ⟨S100000x200, .f32⟩
  | .hbm, ⟨95, _⟩ => ⟨S100000x200, .f32⟩
  | .hbm, ⟨96, _⟩ => ⟨S100000x200, .f32⟩
  | .hbm, ⟨97, _⟩ => ⟨S_, .f32⟩
  | .hbm, ⟨98, _⟩ => ⟨S100000x200, .f32⟩
  | .hbm, ⟨99, _⟩ => ⟨S100000x200, .f32⟩
  | .hbm, ⟨100, _⟩ => ⟨S100000x200, .f32⟩
  | .hbm, ⟨101, _⟩ => ⟨S100000x40, .f32⟩
  | .hbm, ⟨102, _⟩ => ⟨S1x40, .f32⟩
  | .hbm, ⟨103, _⟩ => ⟨S100000x40, .f32⟩
  | .hbm, ⟨104, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_cst_1 : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_v4 : Ref sig .tc := ⟨.hbm, 41, rfl⟩
abbrev main_call0_v5 : Ref sig .tc := ⟨.hbm, 42, rfl⟩
abbrev main_call0_cst_2 : Ref sig .tc := ⟨.hbm, 43, rfl⟩
abbrev main_call0_v6 : Ref sig .tc := ⟨.hbm, 44, rfl⟩
abbrev main_call0_v7 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_1 : Ref sig .tc := ⟨.hbm, 49, rfl⟩
abbrev main_v20 : Ref sig .tc := ⟨.hbm, 50, rfl⟩
abbrev main_v21 : Ref sig .tc := ⟨.hbm, 51, rfl⟩
abbrev main_c_2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_3 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_cst_1 : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_v4 : Ref sig .tc := ⟨.hbm, 76, rfl⟩
abbrev main_call1_v5 : Ref sig .tc := ⟨.hbm, 77, rfl⟩
abbrev main_call1_cst_2 : Ref sig .tc := ⟨.hbm, 78, rfl⟩
abbrev main_call1_v6 : Ref sig .tc := ⟨.hbm, 79, rfl⟩
abbrev main_call1_v7 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_cst_1 : Ref sig .tc := ⟨.hbm, 92, rfl⟩
abbrev main_call2_call0_v0 : Ref sig .tc := ⟨.hbm, 93, rfl⟩
abbrev main_call2_call0_v1 : Ref sig .tc := ⟨.hbm, 94, rfl⟩
abbrev main_call2_v4 : Ref sig .tc := ⟨.hbm, 95, rfl⟩
abbrev main_call2_v5 : Ref sig .tc := ⟨.hbm, 96, rfl⟩
abbrev main_call2_cst_2 : Ref sig .tc := ⟨.hbm, 97, rfl⟩
abbrev main_call2_v6 : Ref sig .tc := ⟨.hbm, 98, rfl⟩
abbrev main_call2_v7 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S200_S1x200_1 : S200.BroadcastsInDim S1x200 (![1] : Fin 1 → Fin S1x200.rank)
  bcast_S1x200_S100000x200_0_1 : S1x200.BroadcastsInDim S100000x200 (![0, 1] : Fin 2 → Fin S100000x200.rank)
  bcast_S_S100000x200 : S_.BroadcastsInDim S100000x200 (![] : Fin 0 → Fin S100000x200.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x200_S100000x200_1_0_0_1_n_n_wf : DotDims.WF S100000x128 S128x200 S100000x200 [1] [0] [0] [1] [] []
  dot_S100000x200_S200x40_S100000x40_1_0_0_1_n_n_wf : DotDims.WF S100000x200 S200x40 S100000x40 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x200_S100000x200_1_0_0_1_n_n : DotDims S100000x128 S128x200 S100000x200 where
  lhsContracting := [1]
  rhsContracting := [0]
  lhsNonContracting := [0]
  rhsNonContracting := [1]
  lhsBatch := []
  rhsBatch := []
  wf := dot_S100000x128_S128x200_S100000x200_1_0_0_1_n_n_wf
def dot_S100000x200_S200x40_S100000x40_1_0_0_1_n_n : DotDims S100000x200 S200x40 S100000x40 where
  lhsContracting := [1]
  rhsContracting := [0]
  lhsNonContracting := [0]
  rhsNonContracting := [1]
  lhsBatch := []
  rhsBatch := []
  wf := dot_S100000x200_S200x40_S100000x40_1_0_0_1_n_n_wf

class Facts : Prop extends Facts₀ where

variable [Facts]
-- ==== Proof.KernelRun.lean ====
import proofs.«123122_j81329500717148_1_alg».proof.Proof.Gen.KernelIdeal.Frame
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

-- the launch theorem's implicit arguments are found by unifying its conclusion with this one, which takes unfolding plain
-- definitions in a metavariable's type
set_option backward.isDefEq.respectTransparency.types false in
/-- The idealized kernel program's run with its result named: every weakly fair execution of the six regions and the host
    stretches between them terminates, nothing faulting, with the result buffer at what the last region's write-backs
    leave (the fold `Gen.W12` of the launch memory through every stretch and region) and every argument array as launched:
    the launch over the segments, the last thread state read against the final state, the result at the fold and each
    argument walked back through it. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = Gen.W12 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v38 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Hand

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«123122_j81329500717148_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«123122_j81329500717148_1_alg».proof.Proof.LibMatmulPlain
import proofs.«123122_j81329500717148_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibElu.lean ====
/-
  The exponential linear unit on the extended reals, and two spellings that denote it at EVERY extended real, the infinite ones included.

    elu1 x  is  x  for 0 < x  and  exp x - 1  otherwise;   elu  applies it entry by entry to an array of any shape.
    The spelling of a tile    x > 0 ? x : exp (min x 0) - 1            denotes it  (min x 0 = x when not 0 < x):        tileElu1;
    the spelling of the host  x > 0 ? x : 1 * expm1 (x > 0 ? 0 : x)    denotes it  (expm1 y = exp y - 1, and 1 * y = y): hostElu1
  (the second is what jax.nn.elu lowers to, the constants 0 and 1 being the f32 words 0x00000000 and 0x3F800000, the comparison the
  ordered "greater than" against the zero word, the choices selections on its one-bit result).
-/
import Idealize.ShloMosaic.Lib.IdealHost
import Idealize.ShloMosaic.PureOps.Ideal

noncomputable section

namespace Cert.Gcn

open Idealize.ShloMosaic

/-- The exponential linear unit at one extended real. -/
def elu1 (x : EReal) : EReal := if 0 < x then x else Ideal.exp x - 1

/-- Entry by entry. -/
def elu {s : Shape} (a : s.Idx → EReal) : s.Idx → EReal := fun i => elu1 (a i)

/-- The tile's spelling at one extended real: the comparison picks x itself when 0 < x, and otherwise min x 0 is x. -/
theorem tileElu1 (x : EReal) :
    Scalar.select (Ideal.cmp .ogt x (Ideal.ofBits .f32 0x00000000#32)) x
      (Ideal.exp (min x (Ideal.ofBits .f32 0x00000000#32)) - Ideal.ofBits .f32 0x3F800000#32) = elu1 x := by
  rw [Ideal.ofBits_zero_f32, Ideal.ofBits_one_f32]
  unfold elu1 Scalar.select Ideal.cmp
  by_cases h : (0 : EReal) < x
  · simp [h]
  · have hx : min x 0 = x := min_eq_left (not_lt.mp h)
    simp [h, hx]

/-- The host's spelling at one extended real: the inner choice is x when not 0 < x, expm1 is exp - 1, and 1 * y = y. -/
theorem hostElu1 (x : EReal) :
    Scalar.select (Ideal.cmp .ogt x (Ideal.ofBits .f32 0x00000000#32)) x
      (Ideal.ofBits .f32 0x3F800000#32 *
        (Ideal.exp (Scalar.select (Ideal.cmp .ogt x (Ideal.ofBits .f32 0x00000000#32)) (Ideal.ofBits .f32 0x00000000#32) x) - 1)) = elu1 x := by
  rw [Ideal.ofBits_zero_f32, Ideal.ofBits_one_f32]
  unfold elu1 Scalar.select Ideal.cmp
  by_cases h : (0 : EReal) < x
  · simp [h]
  · simp [h]

end Cert.Gcn

end
-- ==== Proof.Spec.lean ====
/-
  A two-layer graph convolution followed by a two-layer dense head, as functions on arrays of extended reals.

  For a node-feature matrix x [n, f], an edge list (rows, cols, vals) of e weighted edges and weights and biases per layer:
    a graph layer is   elu (A · (x · W) + b),   A · y the edge sum: row r of A · y is the sum over the edges (r, c, v) of v * y(c, ·);
    the head is        (elu (z · fcW1 + fcb1)) · fcW2 + fcb2.
  Here  mm a w  has entry (p, q) the sum over j of a(p, j) * w(j, q),  bias m b  repeats the vector b down m rows
  (both from the dense-layer vocabulary this module imports),  elu  is, entry by entry,  x  for 0 < x  and  exp x - 1  otherwise,
  and  edgeSum  is the edge sum A · y exactly as both programs spell it on the host (indices wrapped once when negative,
  rows gathered, scaled by the edge value, summed into the destination rows); it is carried as one function and never opened.

  elu and the two spellings of it that the programs use (the tile's and the host's) come from the module on the exponential linear
  unit this one imports; both denote it at every extended real, infinite ones included.
-/
import Idealize.ShloMosaic.Lib.IdealHost
import Idealize.ShloMosaic.Lib.ValueLayout
import Idealize.ShloMosaic.PureOps.Contract
import proofs.«123122_j81329500717148_1_alg».proof.Proof.LibDenseLayers
import proofs.«123122_j81329500717148_1_alg».proof.Proof.LibElu

noncomputable section

namespace Cert.Gcn

open Idealize.ShloMosaic Idealize.ShloMosaic.ValueIdx Cert.Layers

/-- A bias vector added to every row. -/
def addBias {m n : Nat} (a : Mat m n) (b : Row n) : Mat m n := fun i => a i + bias m b i

/-- A one-row array added to every row (the tile reads its bias as a [1, n] array). -/
def addRow {m n : Nat} (a : Mat m n) (r : Mat 1 n) : Mat m n := fun i => a i + r (ix2 (0 : Fin 1) (i 1))

/-- The edge sum A · y as both programs spell it on the host, for e edges into n rows of width d. -/
def edgeSum {e n d : Nat}
    (gd : GatherDims ⟨2, ![n, d]⟩ ⟨2, ![e, 1]⟩ ⟨2, ![e, d]⟩) (sd : ScatterDims ⟨2, ![n, d]⟩ ⟨2, ![e, 1]⟩ ⟨2, ![e, d]⟩)
    (hcol : (⟨1, ![e]⟩ : Shape).BroadcastsInDim ⟨2, ![e, 1]⟩ ![0]) (hsc : (⟨0, ![]⟩ : Shape).BroadcastsInDim ⟨1, ![e]⟩ ![])
    (hrep : (⟨2, ![e, 1]⟩ : Shape).BroadcastsInDim ⟨2, ![e, d]⟩ ![0, 1]) (hz : (⟨0, ![]⟩ : Shape).BroadcastsInDim ⟨2, ![n, d]⟩ ![])
    (wrap : BitVec 32) (rows cols : IVec ⟨1, ![e]⟩ 32) (vals : FVec Ideal ⟨1, ![e]⟩ .f32) (y : FVec Ideal ⟨2, ![n, d]⟩ .f32) :
    FVec Ideal ⟨2, ![n, d]⟩ .f32 :=
  Host.scatterAdd sd (broadcastInDim ⟨2, ![n, d]⟩ ![] hz (constant (F := Ideal) ⟨0, ![]⟩ .f32 0x00000000#32))
    (broadcastInDim ⟨2, ![e, 1]⟩ ![0] hcol rows)
    (mulf (broadcastInDim ⟨2, ![e, d]⟩ ![0, 1] hrep (broadcastInDim ⟨2, ![e, 1]⟩ ![0] hcol vals))
      (Host.gather gd y (broadcastInDim ⟨2, ![e, 1]⟩ ![0] hcol
        (select (cmpi .slt cols (broadcastInDim ⟨1, ![e]⟩ ![] hsc (constantI ⟨0, ![]⟩ 32 0#32)))
          (addi cols (broadcastInDim ⟨1, ![e]⟩ ![] hsc (constantI ⟨0, ![]⟩ 32 wrap))) cols))))

/-- The whole network over an edge sum `es` carried as a function: two graph layers, then the dense head. -/
def gcnOut {n f h p q : Nat} (es : Mat n h → Mat n h) (x : Mat n f) (W1 : Mat f h) (b1 : Row h) (W2 : Mat h h) (b2 : Row h)
    (fcW1 : Mat h p) (fcb1 : Row p) (fcW2 : Mat p q) (fcb2 : Row q) : Mat n q :=
  addBias (mm (elu (addBias (mm (elu (addBias (es (mm (elu (addBias (es (mm x W1)) b1)) W2)) b2)) fcW1) fcb1)) fcW2) fcb2

end Cert.Gcn

end
-- ==== Proof.RowForms.lean ====
/-
  One-row arrays added to every row. The tile reads a bias as a [1, n] array: a bias vector laid out as one row and added to every
  row is the vector added to every row, and the all-zero vector laid out so adds nothing (a + 0 = a at every extended real).
-/
import proofs.«123122_j81329500717148_1_alg».proof.Proof.Spec

noncomputable section

namespace Cert.Gcn

open Idealize.ShloMosaic Idealize.ShloMosaic.ValueIdx Cert.Layers

variable {m n : Nat}

/-- A vector laid out as a one-row array and added to every row is the vector added to every row. -/
theorem addRow_castRow (a : Mat m n) (b : FVec Ideal ⟨1, ![n]⟩ .f32) (hc : (⟨1, ![n]⟩ : Shape).ShapeCasts ⟨2, ![1, n]⟩) :
    addRow a (shapeCast ⟨2, ![1, n]⟩ b hc) = addBias a b := by
  funext i
  obtain ⟨p, q, rfl⟩ : ∃ (p : Fin m) (q : Fin n), i = ix2 p q := ⟨i 0, i 1, eq_ix2 i⟩
  show a (ix2 p q) + shapeCast ⟨2, ![1, n]⟩ b hc (ix2 (0 : Fin 1) q) = a (ix2 p q) + b (ix1 q)
  rw [shapeCast_a_1a_apply b hc 0 q]

/-- The all-zero vector laid out as a one-row array adds nothing. -/
theorem addRow_zeroRow (a : Mat m n) (hb : (⟨0, ![]⟩ : Shape).BroadcastsInDim ⟨1, ![n]⟩ ![])
    (hc : (⟨1, ![n]⟩ : Shape).ShapeCasts ⟨2, ![1, n]⟩) :
    addRow a (shapeCast ⟨2, ![1, n]⟩
      (broadcastInDim ⟨1, ![n]⟩ ![] hb (constant (F := Ideal) ⟨0, ![]⟩ .f32 0x00000000#32)) hc) = a := by
  funext i
  obtain ⟨p, q, rfl⟩ : ∃ (p : Fin m) (q : Fin n), i = ix2 p q := ⟨i 0, i 1, eq_ix2 i⟩
  show a (ix2 p q) + shapeCast ⟨2, ![1, n]⟩
      (broadcastInDim ⟨1, ![n]⟩ ![] hb (constant (F := Ideal) ⟨0, ![]⟩ .f32 0x00000000#32)) hc (ix2 (0 : Fin 1) q) = a (ix2 p q)
  rw [shapeCast_a_1a_apply _ hc 0 q, broadcastInDim_apply _ hb _ (ix1 q) ix0 fun ax => ax.elim0]
  show a (ix2 p q) + Ideal.ofBits .f32 0x00000000#32 = a (ix2 p q)
  rw [Ideal.ofBits_zero_f32, add_zero]

end Cert.Gcn

end
-- ==== Proof.Args.lean ====
/-
  Every argument array holds its launch contents at every boundary of the run: no host operation writes an argument, and a region
  either does not touch it or reads it through an input window, whose array its write-backs leave as entered.
-/
import proofs.«123122_j81329500717148_1_alg».proof.Proof.Gen.KernelIdeal.Frame
import Idealize.ShloMosaic.PureOps.Ideal

noncomputable section

namespace Cert.KernelIdeal.Hand

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The twelve argument arrays. -/
abbrev argRefs : List (Ref sig .tc) :=
  [main_arg0, main_arg1, main_arg2, main_arg3, main_arg4, main_arg5, main_arg6, main_arg7, main_arg8, main_arg9, main_arg10, main_arg11]

theorem host0_keeps (c : Dev nD) (b : Ref sig .tc) (hb : b ∈ argRefs) :
    W1 m ρ c (Proc.devRef .tc b) = W0 m ρ c (Proc.devRef .tc b) := by
  simp only [argRefs, List.mem_cons, List.mem_nil_iff, or_false] at hb
  rcases hb with rfl | rfl | rfl | rfl | rfl | rfl | rfl | rfl | rfl | rfl | rfl | rfl <;>
  · refine StableHlo.after_of_forall_not_mem _ _ (List.forall_iff_forall_mem.mp ?_)
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem region0_keeps (c : Dev nD) (b : Ref sig .tc) (hb : b ∈ argRefs) :
    W2 m ρ c (Proc.devRef .tc b) = W1 m ρ c (Proc.devRef .tc b) := by
  simp only [argRefs, List.mem_cons, List.mem_nil_iff, or_false] at hb
  rcases hb with rfl | rfl | rfl | rfl | rfl | rfl | rfl | rfl | rfl | rfl | rfl | rfl <;>
  first
  | exact W2_of_ne m ρ c _ (by decide)
  | exact (W2_arr m ρ c 0).trans (((dat0 (V1 m ρ) c).arrAt_in 0 rfl _).trans (A_eq0 (V1 m ρ) c 0))
  | exact (W2_arr m ρ c 1).trans (((dat0 (V1 m ρ) c).arrAt_in 1 rfl _).trans (A_eq0 (V1 m ρ) c 1))
  | exact (W2_arr m ρ c 2).trans (((dat0 (V1 m ρ) c).arrAt_in 2 rfl _).trans (A_eq0 (V1 m ρ) c 2))

theorem host1_keeps (c : Dev nD) (b : Ref sig .tc) (hb : b ∈ argRefs) :
    W3 m ρ c (Proc.devRef .tc b) = W2 m ρ c (Proc.devRef .tc b) := by
  simp only [argRefs, List.mem_cons, List.mem_nil_iff, or_false] at hb
  rcases hb with rfl | rfl | rfl | rfl | rfl | rfl | rfl | rfl | rfl | rfl | rfl | rfl <;>
  · refine StableHlo.after_of_forall_not_mem _ _ (List.forall_iff_forall_mem.mp ?_)
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem region1_keeps (c : Dev nD) (b : Ref sig .tc) (hb : b ∈ argRefs) :
    W4 m ρ c (Proc.devRef .tc b) = W3 m ρ c (Proc.devRef .tc b) := by
  simp only [argRefs, List.mem_cons, List.mem_nil_iff, or_false] at hb
  rcases hb with rfl | rfl | rfl | rfl | rfl | rfl | rfl | rfl | rfl | rfl | rfl | rfl <;>
  first
  | exact W4_of_ne m ρ c _ (by decide)
  | exact (W4_arr m ρ c 0).trans (((dat1 (V3 m ρ) c).arrAt_in 0 rfl _).trans (A_eq1 (V3 m ρ) c 0))
  | exact (W4_arr m ρ c 1).trans (((dat1 (V3 m ρ) c).arrAt_in 1 rfl _).trans (A_eq1 (V3 m ρ) c 1))

theorem host2_keeps (c : Dev nD) (b : Ref sig .tc) (hb : b ∈ argRefs) :
    W5 m ρ c (Proc.devRef .tc b) = W4 m ρ c (Proc.devRef .tc b) := by
  simp only [argRefs, List.mem_cons, List.mem_nil_iff, or_false] at hb
  rcases hb with rfl | rfl | rfl | rfl | rfl | rfl | rfl | rfl | rfl | rfl | rfl | rfl <;>
  · refine StableHlo.after_of_forall_not_mem _ _ (List.forall_iff_forall_mem.mp ?_)
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem region2_keeps (c : Dev nD) (b : Ref sig .tc) (hb : b ∈ argRefs) :
    W6 m ρ c (Proc.devRef .tc b) = W5 m ρ c (Proc.devRef .tc b) := by
  simp only [argRefs, List.mem_cons, List.mem_nil_iff, or_false] at hb
  rcases hb with rfl | rfl | rfl | rfl | rfl | rfl | rfl | rfl | rfl | rfl | rfl | rfl <;>
  first
  | exact W6_of_ne m ρ c _ (by decide)
  | exact (W6_arr m ρ c 0).trans (((dat2 (V5 m ρ) c).arrAt_in 0 rfl _).trans (A_eq2 (V5 m ρ) c 0))
  | exact (W6_arr m ρ c 1).trans (((dat2 (V5 m ρ) c).arrAt_in 1 rfl _).trans (A_eq2 (V5 m ρ) c 1))
  | exact (W6_arr m ρ c 2).trans (((dat2 (V5 m ρ) c).arrAt_in 2 rfl _).trans (A_eq2 (V5 m ρ) c 2))

theorem host3_keeps (c : Dev nD) (b : Ref sig .tc) (hb : b ∈ argRefs) :
    W7 m ρ c (Proc.devRef .tc b) = W6 m ρ c (Proc.devRef .tc b) := by
  simp only [argRefs, List.mem_cons, List.mem_nil_iff, or_false] at hb
  rcases hb with rfl | rfl | rfl | rfl | rfl | rfl | rfl | rfl | rfl | rfl | rfl | rfl <;>
  · refine StableHlo.after_of_forall_not_mem _ _ (List.forall_iff_forall_mem.mp ?_)
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem region3_keeps (c : Dev nD) (b : Ref sig .tc) (hb : b ∈ argRefs) :
    W8 m ρ c (Proc.devRef .tc b) = W7 m ρ c (Proc.devRef .tc b) := by
  simp only [argRefs, List.mem_cons, List.mem_nil_iff, or_false] at hb
  rcases hb with rfl | rfl | rfl | rfl | rfl | rfl | rfl | rfl | rfl | rfl | rfl | rfl <;>
  first
  | exact W8_of_ne m ρ c _ (by decide)
  | exact (W8_arr m ρ c 0).trans (((dat3 (V7 m ρ) c).arrAt_in 0 rfl _).trans (A_eq3 (V7 m ρ) c 0))
  | exact (W8_arr m ρ c 1).trans (((dat3 (V7 m ρ) c).arrAt_in 1 rfl _).trans (A_eq3 (V7 m ρ) c 1))

theorem host4_keeps (c : Dev nD) (b : Ref sig .tc) (hb : b ∈ argRefs) :
    W9 m ρ c (Proc.devRef .tc b) = W8 m ρ c (Proc.devRef .tc b) := by
  simp only [argRefs, List.mem_cons, List.mem_nil_iff, or_false] at hb
  rcases hb with rfl | rfl | rfl | rfl | rfl | rfl | rfl | rfl | rfl | rfl | rfl | rfl <;>
  · refine StableHlo.after_of_forall_not_mem _ _ (List.forall_iff_forall_mem.mp ?_)
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem region4_keeps (c : Dev nD) (b : Ref sig .tc) (hb : b ∈ argRefs) :
    W10 m ρ c (Proc.devRef .tc b) = W9 m ρ c (Proc.devRef .tc b) := by
  simp only [argRefs, List.mem_cons, List.mem_nil_iff, or_false] at hb
  rcases hb with rfl | rfl | rfl | rfl | rfl | rfl | rfl | rfl | rfl | rfl | rfl | rfl <;>
  first
  | exact W10_of_ne m ρ c _ (by decide)
  | exact (W10_arr m ρ c 0).trans (((dat4 (V9 m ρ) c).arrAt_in 0 rfl _).trans (A_eq4 (V9 m ρ) c 0))
  | exact (W10_arr m ρ c 1).trans (((dat4 (V9 m ρ) c).arrAt_in 1 rfl _).trans (A_eq4 (V9 m ρ) c 1))
  | exact (W10_arr m ρ c 2).trans (((dat4 (V9 m ρ) c).arrAt_in 2 rfl _).trans (A_eq4 (V9 m ρ) c 2))

theorem host5_keeps (c : Dev nD) (b : Ref sig .tc) (hb : b ∈ argRefs) :
    W11 m ρ c (Proc.devRef .tc b) = W10 m ρ c (Proc.devRef .tc b) := by
  simp only [argRefs, List.mem_cons, List.mem_nil_iff, or_false] at hb
  rcases hb with rfl | rfl | rfl | rfl | rfl | rfl | rfl | rfl | rfl | rfl | rfl | rfl <;>
  · refine StableHlo.after_of_forall_not_mem _ _ (List.forall_iff_forall_mem.mp ?_)
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem region5_keeps (c : Dev nD) (b : Ref sig .tc) (hb : b ∈ argRefs) :
    W12 m ρ c (Proc.devRef .tc b) = W11 m ρ c (Proc.devRef .tc b) := by
  simp only [argRefs, List.mem_cons, List.mem_nil_iff, or_false] at hb
  rcases hb with rfl | rfl | rfl | rfl | rfl | rfl | rfl | rfl | rfl | rfl | rfl | rfl <;>
  first
  | exact W12_of_ne m ρ c _ (by decide)
  | exact (W12_arr m ρ c 0).trans (((dat5 (V11 m ρ) c).arrAt_in 0 rfl _).trans (A_eq5 (V11 m ρ) c 0))
  | exact (W12_arr m ρ c 1).trans (((dat5 (V11 m ρ) c).arrAt_in 1 rfl _).trans (A_eq5 (V11 m ρ) c 1))
  | exact (W12_arr m ρ c 2).trans (((dat5 (V11 m ρ) c).arrAt_in 2 rfl _).trans (A_eq5 (V11 m ρ) c 2))

/-- At the launch the fold is the memory. -/
theorem argsAt0 (c : Dev nD) (b : Ref sig .tc) : W0 m ρ c (Proc.devRef .tc b) = m ((c : Thread nD τ).loc b) := rfl
theorem argsAt1 (c : Dev nD) (b : Ref sig .tc) (hb : b ∈ argRefs) : W1 m ρ c (Proc.devRef .tc b) = m ((c : Thread nD τ).loc b) :=
  (host0_keeps m ρ c b hb).trans (argsAt0 m ρ c b)
theorem argsAt2 (c : Dev nD) (b : Ref sig .tc) (hb : b ∈ argRefs) : W2 m ρ c (Proc.devRef .tc b) = m ((c : Thread nD τ).loc b) :=
  (region0_keeps m ρ c b hb).trans (argsAt1 m ρ c b hb)
theorem argsAt3 (c : Dev nD) (b : Ref sig .tc) (hb : b ∈ argRefs) : W3 m ρ c (Proc.devRef .tc b) = m ((c : Thread nD τ).loc b) :=
  (host1_keeps m ρ c b hb).trans (argsAt2 m ρ c b hb)
theorem argsAt4 (c : Dev nD) (b : Ref sig .tc) (hb : b ∈ argRefs) : W4 m ρ c (Proc.devRef .tc b) = m ((c : Thread nD τ).loc b) :=
  (region1_keeps m ρ c b hb).trans (argsAt3 m ρ c b hb)
theorem argsAt5 (c : Dev nD) (b : Ref sig .tc) (hb : b ∈ argRefs) : W5 m ρ c (Proc.devRef .tc b) = m ((c : Thread nD τ).loc b) :=
  (host2_keeps m ρ c b hb).trans (argsAt4 m ρ c b hb)
theorem argsAt6 (c : Dev nD) (b : Ref sig .tc) (hb : b ∈ argRefs) : W6 m ρ c (Proc.devRef .tc b) = m ((c : Thread nD τ).loc b) :=
  (region2_keeps m ρ c b hb).trans (argsAt5 m ρ c b hb)
theorem argsAt7 (c : Dev nD) (b : Ref sig .tc) (hb : b ∈ argRefs) : W7 m ρ c (Proc.devRef .tc b) = m ((c : Thread nD τ).loc b) :=
  (host3_keeps m ρ c b hb).trans (argsAt6 m ρ c b hb)
theorem argsAt8 (c : Dev nD) (b : Ref sig .tc) (hb : b ∈ argRefs) : W8 m ρ c (Proc.devRef .tc b) = m ((c : Thread nD τ).loc b) :=
  (region3_keeps m ρ c b hb).trans (argsAt7 m ρ c b hb)
theorem argsAt9 (c : Dev nD) (b : Ref sig .tc) (hb : b ∈ argRefs) : W9 m ρ c (Proc.devRef .tc b) = m ((c : Thread nD τ).loc b) :=
  (host4_keeps m ρ c b hb).trans (argsAt8 m ρ c b hb)
theorem argsAt10 (c : Dev nD) (b : Ref sig .tc) (hb : b ∈ argRefs) : W10 m ρ c (Proc.devRef .tc b) = m ((c : Thread nD τ).loc b) :=
  (region4_keeps m ρ c b hb).trans (argsAt9 m ρ c b hb)
theorem argsAt11 (c : Dev nD) (b : Ref sig .tc) (hb : b ∈ argRefs) : W11 m ρ c (Proc.devRef .tc b) = m ((c : Thread nD τ).loc b) :=
  (host5_keeps m ρ c b hb).trans (argsAt10 m ρ c b hb)
theorem argsAt12 (c : Dev nD) (b : Ref sig .tc) (hb : b ∈ argRefs) : W12 m ρ c (Proc.devRef .tc b) = m ((c : Thread nD τ).loc b) :=
  (region5_keeps m ρ c b hb).trans (argsAt11 m ρ c b hb)

end Cert.KernelIdeal.Hand

end
-- ==== Proof.Chain.lean ====
/-
  The idealized kernel program's result as a function of its arguments: the fold of the launch memory through the six regions and
  the host stretches between them, read back layer by layer.

  Region 0 leaves  x · W1  (its bias row is the all-zero vector, which adds nothing); the stretch after it takes the edge sum and lays
  b1 out as a row; region 1 leaves  h1 = elu (A · (x · W1) + b1);  region 2 leaves  h1 · W2  (zero bias again); the next stretch and
  region 3 leave  z = elu (A · (h1 · W2) + b2);  region 4 leaves  h3 = elu (z · fcW1 + fcb1);  region 5 leaves  h3 · fcW2 + fcb2.
  What each region leaves in its output array is taken here as a hypothesis (one statement per region, proved beside this module);
  the arguments reach every boundary unchanged.
-/
import proofs.«123122_j81329500717148_1_alg».proof.Proof.Gen.KernelIdeal.Frame
import proofs.«123122_j81329500717148_1_alg».proof.Proof.Spec
import proofs.«123122_j81329500717148_1_alg».proof.Proof.RowForms
import proofs.«123122_j81329500717148_1_alg».proof.Proof.Args
import Idealize.ShloMosaic.Lib.StableHlo.Run

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen Cert.Layers Cert.Gcn

/-- What region 0 leaves in its output array, whatever the buffers hold when it is entered. -/
abbrev Region0Stmt : Prop :=
  ∀ (V : (c : Dev nD) → (b : Ref sig .tc) → Buf (Elt Ideal) ((c : Thread nD τ).loc b)) (c : Dev nD),
    ((Gen.dat0 (F := Ideal) V c).arrAt 3 cfg0.N : S100000x128.Idx → EReal) = addRow (mm (m := 100000) (k := 256) (n := 128) (V c (Pipeline.arrRef spec0 0)) (V c (Pipeline.arrRef spec0 1))) (V c (Pipeline.arrRef spec0 2))

/-- What region 1 leaves in its output array, whatever the buffers hold when it is entered. -/
abbrev Region1Stmt : Prop :=
  ∀ (V : (c : Dev nD) → (b : Ref sig .tc) → Buf (Elt Ideal) ((c : Thread nD τ).loc b)) (c : Dev nD),
    ((Gen.dat1 (F := Ideal) V c).arrAt 2 cfg1.N : S100000x128.Idx → EReal) = elu (addRow (m := 100000) (n := 128) (V c (Pipeline.arrRef spec1 0)) (V c (Pipeline.arrRef spec1 1)))

/-- What region 2 leaves in its output array, whatever the buffers hold when it is entered. -/
abbrev Region2Stmt : Prop :=
  ∀ (V : (c : Dev nD) → (b : Ref sig .tc) → Buf (Elt Ideal) ((c : Thread nD τ).loc b)) (c : Dev nD),
    ((Gen.dat2 (F := Ideal) V c).arrAt 3 cfg2.N : S100000x128.Idx → EReal) = addRow (mm (m := 100000) (k := 128) (n := 128) (V c (Pipeline.arrRef spec2 0)) (V c (Pipeline.arrRef spec2 1))) (V c (Pipeline.arrRef spec2 2))

/-- What region 3 leaves in its output array, whatever the buffers hold when it is entered. -/
abbrev Region3Stmt : Prop :=
  ∀ (V : (c : Dev nD) → (b : Ref sig .tc) → Buf (Elt Ideal) ((c : Thread nD τ).loc b)) (c : Dev nD),
    ((Gen.dat3 (F := Ideal) V c).arrAt 2 cfg3.N : S100000x128.Idx → EReal) = elu (addRow (m := 100000) (n := 128) (V c (Pipeline.arrRef spec3 0)) (V c (Pipeline.arrRef spec3 1)))

/-- What region 4 leaves in its output array, whatever the buffers hold when it is entered. -/
abbrev Region4Stmt : Prop :=
  ∀ (V : (c : Dev nD) → (b : Ref sig .tc) → Buf (Elt Ideal) ((c : Thread nD τ).loc b)) (c : Dev nD),
    ((Gen.dat4 (F := Ideal) V c).arrAt 3 cfg4.N : S100000x200.Idx → EReal) = elu (addRow (mm (m := 100000) (k := 128) (n := 200) (V c (Pipeline.arrRef spec4 0)) (V c (Pipeline.arrRef spec4 1))) (V c (Pipeline.arrRef spec4 2)))

/-- What region 5 leaves in its output array, whatever the buffers hold when it is entered. -/
abbrev Region5Stmt : Prop :=
  ∀ (V : (c : Dev nD) → (b : Ref sig .tc) → Buf (Elt Ideal) ((c : Thread nD τ).loc b)) (c : Dev nD),
    ((Gen.dat5 (F := Ideal) V c).arrAt 3 cfg5.N : S100000x40.Idx → EReal) = addRow (mm (m := 100000) (k := 200) (n := 40) (V c (Pipeline.arrRef spec5 0)) (V c (Pipeline.arrRef spec5 1))) (V c (Pipeline.arrRef spec5 2))

/-- The edge sum with the kernel program's own dimension records. -/
abbrev edges (rows cols : IVec S1600000 32) (vals : FVec Ideal S1600000 .f32) (y : FVec Ideal S100000x128 .f32) : FVec Ideal S100000x128 .f32 :=
  edgeSum (e := 1600000) (n := 100000) (d := 128) gather_S100000x128_S1600000x1_S1600000x128_1_0_n_n_0_1_1128
    scatter_S100000x128_S1600000x1_S1600000x128_1_0_0_1 bcast_S1600000_S1600000x1_0 bcast_S_S1600000
    bcast_S1600000x1_S1600000x128_0_1 bcast_S_S100000x128 100000#32 rows cols vals y

variable (m : (ℓ : Loc nD τ sig) → Buf (Elt Ideal) ℓ) (ρ : Dev nD → PrngReg)

/-- A buffer no operation of a stretch writes holds after the stretch what it held before. -/
macro "not_written " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The edge sum over the launch contents of the edge list. -/
abbrev es (c : Dev nD) : Mat 100000 128 → Mat 100000 128 := edges (m ((c : Thread nD τ).loc main_arg9)) (m ((c : Thread nD τ).loc main_arg10)) (m ((c : Thread nD τ).loc main_arg11))

/-- x · W1. -/
def lay0 (c : Dev nD) : Mat 100000 128 := mm (m ((c : Thread nD τ).loc main_arg0)) (m ((c : Thread nD τ).loc main_arg1))
/-- h1 = elu (A · (x · W1) + b1). -/
def lay1 (c : Dev nD) : Mat 100000 128 := elu (addBias (es m c (lay0 m c)) (m ((c : Thread nD τ).loc main_arg2)))
/-- h1 · W2. -/
def lay2 (c : Dev nD) : Mat 100000 128 := mm (lay1 m c) (m ((c : Thread nD τ).loc main_arg3))
/-- z = elu (A · (h1 · W2) + b2). -/
def lay3 (c : Dev nD) : Mat 100000 128 := elu (addBias (es m c (lay2 m c)) (m ((c : Thread nD τ).loc main_arg4)))
/-- h3 = elu (z · fcW1 + fcb1). -/
def lay4 (c : Dev nD) : Mat 100000 200 := elu (addBias (mm (lay3 m c) (m ((c : Thread nD τ).loc main_arg5))) (m ((c : Thread nD τ).loc main_arg6)))
/-- h3 · fcW2 + fcb2. -/
def lay5 (c : Dev nD) : Mat 100000 40 := addBias (mm (lay4 m c) (m ((c : Thread nD τ).loc main_arg7))) (m ((c : Thread nD τ).loc main_arg8))

/-! ## Before and in region 0 -/

/-- The all-zero vector the first stretch makes. -/
theorem zeros_at1 (c : Dev nD) : (W1 m ρ c (Proc.devRef .tc main_v0) : S128.Idx → EReal)
    = broadcastInDim S128 ![] bcast_S_S128 (constant (F := Ideal) S_ .f32 0x00000000#32) := by
  show StableHlo.after hostOps0 (W0 m ρ c) (Proc.devRef .tc main_v0) = _
  after_results_simp

/-- Laid out as a row for region 0. -/
theorem zeroRow_at1 (c : Dev nD) : (W1 m ρ c (Proc.devRef .tc main_v1) : S1x128.Idx → EReal)
    = shapeCast S1x128 (broadcastInDim S128 ![] bcast_S_S128 (constant (F := Ideal) S_ .f32 0x00000000#32)) shapeCasts_S128_S1x128 := by
  show StableHlo.after hostOps0 (W0 m ρ c) (Proc.devRef .tc main_v1) = _
  after_results_simp
  rfl

theorem layer0 (h0 : Region0Stmt) (c : Dev nD) :
    (W2 m ρ c (Proc.devRef .tc main_v2) : S100000x128.Idx → EReal) = lay0 m c := by
  refine (W2_arr m ρ c 3).trans ((h0 (V1 m ρ) c).trans ?_)
  show addRow (mm (W1 m ρ c (Proc.devRef .tc main_arg0)) (W1 m ρ c (Proc.devRef .tc main_arg1))) (W1 m ρ c (Proc.devRef .tc main_v1)) = _
  rw [argsAt1 m ρ c main_arg0 (by decide), argsAt1 m ρ c main_arg1 (by decide), zeroRow_at1 m ρ c]
  exact addRow_zeroRow _ _ _

/-! ## The stretch after region 0, and region 1 -/

theorem edge_at3 (c : Dev nD) : (W3 m ρ c (Proc.devRef .tc main_v15) : S100000x128.Idx → EReal)
    = edges (W2 m ρ c (Proc.devRef .tc main_arg9)) (W2 m ρ c (Proc.devRef .tc main_arg10)) (W2 m ρ c (Proc.devRef .tc main_arg11)) (W2 m ρ c (Proc.devRef .tc main_v2)) := by
  show StableHlo.after hostOps1 (W2 m ρ c) (Proc.devRef .tc main_v15) = _
  after_results_simp
  rfl

theorem biasRow_at3 (c : Dev nD) : (W3 m ρ c (Proc.devRef .tc main_v16) : S1x128.Idx → EReal)
    = shapeCast S1x128 (W2 m ρ c (Proc.devRef .tc main_arg2)) shapeCasts_S128_S1x128 := by
  show StableHlo.after hostOps1 (W2 m ρ c) (Proc.devRef .tc main_v16) = _
  after_results_simp
  rfl

theorem layer1 (h0 : Region0Stmt) (h1 : Region1Stmt) (c : Dev nD) :
    (W4 m ρ c (Proc.devRef .tc main_v17) : S100000x128.Idx → EReal) = lay1 m c := by
  refine (W4_arr m ρ c 2).trans ((h1 (V3 m ρ) c).trans ?_)
  show elu (addRow (W3 m ρ c (Proc.devRef .tc main_v15)) (W3 m ρ c (Proc.devRef .tc main_v16))) = _
  rw [edge_at3 m ρ c, biasRow_at3 m ρ c, argsAt2 m ρ c main_arg9 (by decide), argsAt2 m ρ c main_arg10 (by decide),
    argsAt2 m ρ c main_arg11 (by decide), argsAt2 m ρ c main_arg2 (by decide), layer0 m ρ h0 c, addRow_castRow]
  rfl

/-! ## The stretch after region 1, and region 2 -/

/-- The all-zero vector is still there when region 2's stretch lays it out again. -/
theorem zeros_at4 (c : Dev nD) : W4 m ρ c (Proc.devRef .tc main_v0) = W1 m ρ c (Proc.devRef .tc main_v0) :=
  calc W4 m ρ c (Proc.devRef .tc main_v0)
    _ = W3 m ρ c (Proc.devRef .tc main_v0) := W4_of_ne m ρ c main_v0 (by decide)
    _ = W2 m ρ c (Proc.devRef .tc main_v0) := by not_written hostOps1
    _ = W1 m ρ c (Proc.devRef .tc main_v0) := W2_of_ne m ρ c main_v0 (by decide)

theorem zeroRow_at5 (c : Dev nD) : (W5 m ρ c (Proc.devRef .tc main_v18) : S1x128.Idx → EReal)
    = shapeCast S1x128 (W4 m ρ c (Proc.devRef .tc main_v0)) shapeCasts_S128_S1x128 := by
  show StableHlo.after hostOps2 (W4 m ρ c) (Proc.devRef .tc main_v18) = _
  after_results_simp
  rfl

theorem h1_at5 (c : Dev nD) : W5 m ρ c (Proc.devRef .tc main_v17) = W4 m ρ c (Proc.devRef .tc main_v17) := by
  not_written hostOps2

theorem layer2 (h0 : Region0Stmt) (h1 : Region1Stmt) (h2 : Region2Stmt) (c : Dev nD) :
    (W6 m ρ c (Proc.devRef .tc main_v19) : S100000x128.Idx → EReal) = lay2 m c := by
  refine (W6_arr m ρ c 3).trans ((h2 (V5 m ρ) c).trans ?_)
  show addRow (mm (W5 m ρ c (Proc.devRef .tc main_v17)) (W5 m ρ c (Proc.devRef .tc main_arg3))) (W5 m ρ c (Proc.devRef .tc main_v18)) = _
  rw [h1_at5 m ρ c, layer1 m ρ h0 h1 c, argsAt5 m ρ c main_arg3 (by decide), zeroRow_at5 m ρ c, zeros_at4 m ρ c, zeros_at1 m ρ c]
  exact addRow_zeroRow _ _ _

/-! ## The stretch after region 2, and region 3 -/

theorem edge_at7 (c : Dev nD) : (W7 m ρ c (Proc.devRef .tc main_v32) : S100000x128.Idx → EReal)
    = edges (W6 m ρ c (Proc.devRef .tc main_arg9)) (W6 m ρ c (Proc.devRef .tc main_arg10)) (W6 m ρ c (Proc.devRef .tc main_arg11)) (W6 m ρ c (Proc.devRef .tc main_v19)) := by
  show StableHlo.after hostOps3 (W6 m ρ c) (Proc.devRef .tc main_v32) = _
  after_results_simp
  rfl

theorem biasRow_at7 (c : Dev nD) : (W7 m ρ c (Proc.devRef .tc main_v33) : S1x128.Idx → EReal)
    = shapeCast S1x128 (W6 m ρ c (Proc.devRef .tc main_arg4)) shapeCasts_S128_S1x128 := by
  show StableHlo.after hostOps3 (W6 m ρ c) (Proc.devRef .tc main_v33) = _
  after_results_simp
  rfl

theorem layer3 (h0 : Region0Stmt) (h1 : Region1Stmt) (h2 : Region2Stmt) (h3 : Region3Stmt) (c : Dev nD) :
    (W8 m ρ c (Proc.devRef .tc main_v34) : S100000x128.Idx → EReal) = lay3 m c := by
  refine (W8_arr m ρ c 2).trans ((h3 (V7 m ρ) c).trans ?_)
  show elu (addRow (W7 m ρ c (Proc.devRef .tc main_v32)) (W7 m ρ c (Proc.devRef .tc main_v33))) = _
  rw [edge_at7 m ρ c, biasRow_at7 m ρ c, argsAt6 m ρ c main_arg9 (by decide), argsAt6 m ρ c main_arg10 (by decide),
    argsAt6 m ρ c main_arg11 (by decide), argsAt6 m ρ c main_arg4 (by decide), layer2 m ρ h0 h1 h2 c, addRow_castRow]
  rfl

/-! ## Region 4 -/

theorem biasRow_at9 (c : Dev nD) : (W9 m ρ c (Proc.devRef .tc main_v35) : S1x200.Idx → EReal)
    = shapeCast S1x200 (W8 m ρ c (Proc.devRef .tc main_arg6)) shapeCasts_S200_S1x200 := by
  show StableHlo.after hostOps4 (W8 m ρ c) (Proc.devRef .tc main_v35) = _
  after_results_simp
  rfl

theorem z_at9 (c : Dev nD) : W9 m ρ c (Proc.devRef .tc main_v34) = W8 m ρ c (Proc.devRef .tc main_v34) := by
  not_written hostOps4

theorem layer4 (h0 : Region0Stmt) (h1 : Region1Stmt) (h2 : Region2Stmt) (h3 : Region3Stmt) (h4 : Region4Stmt) (c : Dev nD) :
    (W10 m ρ c (Proc.devRef .tc main_v36) : S100000x200.Idx → EReal) = lay4 m c := by
  refine (W10_arr m ρ c 3).trans ((h4 (V9 m ρ) c).trans ?_)
  show elu (addRow (mm (W9 m ρ c (Proc.devRef .tc main_v34)) (W9 m ρ c (Proc.devRef .tc main_arg5))) (W9 m ρ c (Proc.devRef .tc main_v35))) = _
  rw [z_at9 m ρ c, layer3 m ρ h0 h1 h2 h3 c, argsAt9 m ρ c main_arg5 (by decide), biasRow_at9 m ρ c,
    argsAt8 m ρ c main_arg6 (by decide), addRow_castRow]
  rfl

/-! ## Region 5 -/

theorem biasRow_at11 (c : Dev nD) : (W11 m ρ c (Proc.devRef .tc main_v37) : S1x40.Idx → EReal)
    = shapeCast S1x40 (W10 m ρ c (Proc.devRef .tc main_arg8)) shapeCasts_S40_S1x40 := by
  show StableHlo.after hostOps5 (W10 m ρ c) (Proc.devRef .tc main_v37) = _
  after_results_simp
  rfl

theorem h3_at11 (c : Dev nD) : W11 m ρ c (Proc.devRef .tc main_v36) = W10 m ρ c (Proc.devRef .tc main_v36) := by
  not_written hostOps5

theorem layer5 (h0 : Region0Stmt) (h1 : Region1Stmt) (h2 : Region2Stmt) (h3 : Region3Stmt) (h4 : Region4Stmt) (h5 : Region5Stmt)
    (c : Dev nD) : (W12 m ρ c (Proc.devRef .tc main_v38) : S100000x40.Idx → EReal) = lay5 m c := by
  refine (W12_arr m ρ c 3).trans ((h5 (V11 m ρ) c).trans ?_)
  show addRow (mm (W11 m ρ c (Proc.devRef .tc main_v36)) (W11 m ρ c (Proc.devRef .tc main_arg7))) (W11 m ρ c (Proc.devRef .tc main_v37)) = _
  rw [h3_at11 m ρ c, layer4 m ρ h0 h1 h2 h3 h4 c, argsAt11 m ρ c main_arg7 (by decide), biasRow_at11 m ρ c,
    argsAt10 m ρ c main_arg8 (by decide), addRow_castRow]
  rfl

/-- The result buffer after the whole run is the network's function of the launch contents of the arguments. -/
theorem kernel_value (h0 : Region0Stmt) (h1 : Region1Stmt) (h2 : Region2Stmt) (h3 : Region3Stmt) (h4 : Region4Stmt) (h5 : Region5Stmt)
    (c : Dev nD) : (W12 m ρ c (Proc.devRef .tc main_v38) : S100000x40.Idx → EReal)
      = gcnOut (n := 100000) (f := 256) (h := 128) (p := 200) (q := 40) (es m c)
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (layer5 m ρ h0 h1 h2 h3 h4 h5 c).trans rfl

end Cert.KernelIdeal.Hand

end
-- ==== Proof.DenseTile.lean ====
/-
  One tile of a dense layer, entry by entry, on the extended reals.

  A tile takes a block x0 [b, k] of the input's rows, the whole weight x1 [k, n] and the whole one-row bias x2 [1, n], and leaves
  x0 · x1 on the matrix unit (into a zero accumulator, both operands first cast to a narrower float format: the identity on the
  extended reals) plus the bias row repeated down the rows; one of the layers then applies the exponential linear unit in
  the tile's spelling. Entry (p, q) of that is the k-term sum of x0(p, j) * x1(j, q) plus x2(0, q).

  When row p of the tile's input block is row P of the whole input array, and the weight and bias blocks are the whole weight and
  bias arrays, that entry is entry (P, q) of the whole-array layer  addRow (mm A0 A1) A2 : only the row index moves.
-/
import proofs.«123122_j81329500717148_1_alg».proof.Proof.Spec

noncomputable section

namespace Cert.KernelIdeal.Hand

open Idealize.ShloMosaic Idealize.ShloMosaic.ValueIdx Cert.Layers Cert.Gcn Cert.LibMatmulPlain

/-- The two zero offsets of a whole-block access, as the constant function. -/
theorem offsets_zero : (![0, 0] : Fin 2 → Nat) = fun _ => 0 := funext fun a => by fin_cases a <;> rfl

/-- Entry (p, q) of a tile: the product on the matrix unit into a zero accumulator, both operands cast to a narrower format
    first, plus a one-row bias repeated down the rows, is the k-term sum of products plus the bias row's entry of the column.
    The left operand may be given as any vector equal to x0 (an identity re-layout of it). -/
theorem denseTile_apply {m k n : Nat} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (x0 y0 : FVec Ideal ⟨2, ![m, k]⟩ .f32) (hy : y0 = x0) (x1 : FVec Ideal ⟨2, ![k, n]⟩ .f32)
    (x2 : FVec Ideal ⟨2, ![1, n]⟩ .f32) (h0 : FTy.bf16.bits < FTy.f32.bits)
    (hc : (⟨2, ![1, n]⟩ : Shape).ShapeCasts ⟨2, ![1, n]⟩) (hb : (⟨2, ![1, n]⟩ : Shape).Broadcasts ⟨2, ![m, n]⟩)
    (p : Fin m) (q : Fin n) :
    addf (matmul d none (truncf .bf16 y0 h0) (truncf .bf16 x1 h0) (constant ⟨2, ![m, n]⟩ .f32 0x00000000#32))
        (broadcastTo ⟨2, ![m, n]⟩ (shapeCast ⟨2, ![1, n]⟩ x2 hc) hb) (ix2 p q)
      = mm x0 x1 (ix2 p q) + x2 (ix2 (0 : Fin 1) q) := by
  subst hy
  rw [addf_apply, tileMm_eq d wf hd (truncf .bf16 y0 h0) x1 h0, shapeCast_self, broadcastTo_1b_ab_apply]
  rfl

/-- The exponential linear unit in the tile's spelling, at an index. -/
theorem eluTile_apply {s : Shape} (v : FVec Ideal s .f32) (i : s.Idx) :
    select (cmpf .ogt v (broadcast s (Scalar.ofBits (F := Ideal) .f32 0x00000000#32))) v
        (subf (exp (minimumf v (broadcast s (Scalar.ofBits (F := Ideal) .f32 0x00000000#32))))
          (broadcast s (Scalar.ofBits (F := Ideal) .f32 0x3F800000#32))) i
      = elu1 (v i) :=
  tileElu1 (v i)

/-- A tile's entry is the whole-array layer's entry of the same column in the row the tile's row comes from. -/
theorem addRow_mm_tile {M K N B : Nat} (A0 : Mat M K) (A1 : Mat K N) (A2 : Mat 1 N) (x0 : Mat B K) (x1 : Mat K N) (x2 : Mat 1 N)
    (P : Fin M) (p : Fin B) (q : Fin N)
    (h0 : ∀ j : Fin K, x0 (ix2 p j) = A0 (ix2 P j)) (h1 : ∀ j : Fin K, x1 (ix2 j q) = A1 (ix2 j q))
    (h2 : x2 (ix2 (0 : Fin 1) q) = A2 (ix2 (0 : Fin 1) q)) :
    mm x0 x1 (ix2 p q) + x2 (ix2 (0 : Fin 1) q) = addRow (mm A0 A1) A2 (ix2 P q) := by
  show (∑ j : Fin K, x0 (ix2 p j) * x1 (ix2 j q)) + x2 (ix2 (0 : Fin 1) q)
    = (∑ j : Fin K, A0 (ix2 P j) * A1 (ix2 j q)) + A2 (ix2 (0 : Fin 1) q)
  rw [h2]
  exact congrArg (· + A2 (ix2 (0 : Fin 1) q)) (Finset.sum_congr rfl fun j _ => by rw [h0 j, h1 j])

end Cert.KernelIdeal.Hand

end
-- ==== Proof.Region0.lean ====
import proofs.«123122_j81329500717148_1_alg».proof.Proof.Gen.KernelIdeal.Frame
import proofs.«123122_j81329500717148_1_alg».proof.Proof.Spec
import proofs.«123122_j81329500717148_1_alg».proof.Proof.DenseTile
import Idealize.ShloMosaic.Lib.Pipeline.Value

noncomputable section

namespace Cert.KernelIdeal.Hand

open Idealize.ShloMosaic Idealize.ShloMosaic.TcCoe Idealize.ShloMosaic.ValueIdx Idealize.SL.Sem Cert.KernelIdeal Cert.Layers Cert.Gcn
open Idealize.ShloMosaic.Pipeline (Dat)

/-- The tile's payload at an entry: the 256-term sum of products plus the bias row's entry of the column. -/
theorem dense0_pay (x0 : Vec Ideal S5000x256 .f32) (x1 : Vec Ideal S256x128 .f32) (x2 : Vec Ideal S1x128 .f32)
    (p : Fin 5000) (q : Fin 128) :
    Gen.k0_pay1 x0 x1 x2 (ix2 p q)
      = mm (m := 5000) (k := 256) (n := 128) x0 x1 (ix2 p q) + x2 (ix2 (0 : Fin 1) q) := by
  unfold Gen.k0_pay1
  exact denseTile_apply dot_S5000x256_S256x128_S5000x128_1_0_0_1_n_n dot_S5000x256_S256x128_S5000x128_1_0_0_1_n_n.wf rfl
    x0 x0 rfl x1 x2 Gen.bitsLt_bf16_f32 Gen.shapeCasts_S1x128_S1x128 Gen.broadcasts_S1x128_S5000x128 p q

/-- The index maps over the grid: the input's and the output's blocks move down the rows with the point, the weight's and
    the bias's stay. -/
theorem dense0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is rows 5000 t … 5000 t + 4999 of the layer of the arrays the region finds. -/
theorem dense0_flushed (V : (c : Dev nD) → (b : Ref sig .tc) → Buf (Elt Ideal) ((c : Thread nD τ).loc b)) (c : Dev nD)
    (t : Fin cfg0.N) :
    (Gen.dat0 (F := Ideal) V c).flushed 3 t
      = ((cfg0.win 3).blk t).view.read (Elt Ideal)
          (addRow (mm (m := 100000) (k := 256) (n := 128) (V c (Pipeline.arrRef spec0 0)) (V c (Pipeline.arrRef spec0 1)))
            (V c (Pipeline.arrRef spec0 2))) := by
  show (cfg0.win 3).cut (grid0.coords t) ((Gen.dat0 V c).after 3 t) = _
  rw [Gen.after0_3]
  unfold Gen.out0_3
  rw [View.canon_unit_zero offsets_zero]
  simp only [View.ld_unit_zero (S := S5000x256) offsets_zero, View.ld_unit_zero (S := S256x128) offsets_zero,
    View.ld_unit_zero (S := S1x128) offsets_zero]
  obtain ⟨e00, e01, e10, e11, e20, e21, e30, e31⟩ := dense0_idx t
  have ht : t.val < 20 := lt_of_lt_of_eq t.isLt Gen.N_0
  refine funext fun (j : S5000x128.Idx) => ?_
  obtain ⟨p, q, rfl⟩ : ∃ (p : Fin 5000) (q : Fin 128), j = ix2 p q := ⟨j 0, j 1, eq_ix2 j⟩
  show Gen.k0_pay1 (Gen.iblk0 V c 0 t) (Gen.iblk0 V c 1 t) (Gen.iblk0 V c 2 t) (ix2 p q)
    = addRow (mm (m := 100000) (k := 256) (n := 128) (V c (Pipeline.arrRef spec0 0)) (V c (Pipeline.arrRef spec0 1)))
        (V c (Pipeline.arrRef spec0 2)) (((cfg0.win 3).blk t).view.emb (ix2 p q))
  refine (dense0_pay (Gen.iblk0 V c 0 t) (Gen.iblk0 V c 1 t) (Gen.iblk0 V c 2 t) p q).trans ?_
  have hemb : ((cfg0.win 3).blk t).view.emb (ix2 p q)
      = (ix2 (⟨5000 * t.val + p.val, by omega⟩ : Fin 100000) q : S100000x128.Idx) := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  rw [hemb]
  refine addRow_mm_tile (M := 100000) (K := 256) (N := 128) (B := 5000)
    (V c (Pipeline.arrRef spec0 0)) (V c (Pipeline.arrRef spec0 1)) (V c (Pipeline.arrRef spec0 2))
    (Gen.iblk0 V c 0 t) (Gen.iblk0 V c 1 t) (Gen.iblk0 V c 2 t) ⟨5000 * t.val + p.val, by omega⟩ p q
    (fun j => ?_) (fun j => ?_) ?_
  · show (V c (Pipeline.arrRef spec0 0) : S100000x256.Idx → EReal) (((cfg0.win 0).blk t).view.emb (ix2 p j))
      = (V c (Pipeline.arrRef spec0 0) : S100000x256.Idx → EReal) (ix2 (⟨5000 * t.val + p.val, by omega⟩ : Fin 100000) j)
    refine congrArg (V c (Pipeline.arrRef spec0 0) : S100000x256.Idx → EReal) (funext fun a => Fin.ext ?_)
    match a with
    | ⟨0, _⟩ => show win0_0.index t (0 : Fin 2) * 5000 + 1 * p.val = 5000 * t.val + p.val; omega
    | ⟨1, _⟩ => show win0_0.index t (1 : Fin 2) * 256 + 1 * j.val = j.val; omega
  · show (V c (Pipeline.arrRef spec0 1) : S256x128.Idx → EReal) (((cfg0.win 1).blk t).view.emb (ix2 j q))
      = (V c (Pipeline.arrRef spec0 1) : S256x128.Idx → EReal) (ix2 j q)
    refine congrArg (V c (Pipeline.arrRef spec0 1) : S256x128.Idx → EReal) (funext fun a => Fin.ext ?_)
    match a with
    | ⟨0, _⟩ => show win0_1.index t (0 : Fin 2) * 256 + 1 * j.val = j.val; omega
    | ⟨1, _⟩ => show win0_1.index t (1 : Fin 2) * 128 + 1 * q.val = q.val; omega
  · show (V c (Pipeline.arrRef spec0 2) : S1x128.Idx → EReal) (((cfg0.win 2).blk t).view.emb (ix2 (0 : Fin 1) q))
      = (V c (Pipeline.arrRef spec0 2) : S1x128.Idx → EReal) (ix2 (0 : Fin 1) q)
    refine congrArg (V c (Pipeline.arrRef spec0 2) : S1x128.Idx → EReal) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * q.val = q.val; omega

/-- An index of the output array is in point t's block iff each coordinate is in the block's range on its axis. -/
theorem dense0_mem (t : Fin cfg0.N) (i : S100000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v2).slice (win0_3.rect t)).set ↔ _
  rw [View.set_slice_whole, Rect.mem_set_unit]
  exact Iff.rfl

/-- Row r of the output array is written back by point r / 5000. -/
theorem dense0_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := Gen.N_0
  have hlt : (i 0).val / 5000 < cfg0.N := by rw [hN]; omega
  obtain ⟨-, -, -, -, -, -, e30, e31⟩ := dense0_idx ⟨(i 0).val / 5000, hlt⟩
  refine ⟨⟨(i 0).val / 5000, hlt⟩, Gen.flush0_3 _, ?_⟩
  rw [dense0_mem]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e31]
    omega

/-- Region 0 (a dense layer tiled over blocks of 5000 rows), whatever the buffers hold when it is entered: its output array ends at
    a · w plus the one-row bias array's entry of the column. -/
theorem region0_out (V : (c : Dev nD) → (b : Ref sig .tc) → Buf (Elt Ideal) ((c : Thread nD τ).loc b)) (c : Dev nD) :
    ((Gen.dat0 (F := Ideal) V c).arrAt 3 cfg0.N : S100000x128.Idx → EReal)
      = addRow (mm (m := 100000) (k := 256) (n := 128) (V c (Pipeline.arrRef spec0 0)) (V c (Pipeline.arrRef spec0 1)))
          (V c (Pipeline.arrRef spec0 2)) :=
  (Gen.dat0 (F := Ideal) V c).arrAt_eq_of_cover 3
    (addRow (mm (m := 100000) (k := 256) (n := 128) (V c (Pipeline.arrRef spec0 0)) (V c (Pipeline.arrRef spec0 1)))
      (V c (Pipeline.arrRef spec0 2)))
    (fun t _ => dense0_flushed V c t) dense0_cover

end Cert.KernelIdeal.Hand

end
-- ==== Proof.BiasEluTile.lean ====
/-
  A bias row added to every row of a block, then the exponential linear unit, as a vector program spells it, read at
  an entry on the extended reals, for any extents: the block [m, n] and the bias row [1, n] each cast to their own shape
  (the identity), the row repeated down the m rows and added, and the unit spelt  v > 0 ? v : exp (min v 0) - 1  with
  the constants 0 and 1 repeated over the shape. Entry (p, q) is elu1 of the block's entry (p, q) plus the row's entry q.
-/
import Idealize.ShloMosaic.Lib.ValueLayout
import Idealize.ShloMosaic.Lib.Pipeline.Value
import proofs.«123122_j81329500717148_1_alg».proof.Proof.Spec

noncomputable section

namespace Cert.KernelIdeal.Hand

open Idealize.ShloMosaic Idealize.ShloMosaic.ValueIdx Cert.Layers Cert.Gcn

/-- The sum of a block and a bias row repeated down its rows, at (p, q): the block's entry plus the row's entry q. -/
theorem addRowTile_apply {m n : Nat} (x : FVec Ideal ⟨2, ![m, n]⟩ .f32) (r : FVec Ideal ⟨2, ![1, n]⟩ .f32)
    (hx : (⟨2, ![m, n]⟩ : Shape).ShapeCasts ⟨2, ![m, n]⟩) (hr : (⟨2, ![1, n]⟩ : Shape).ShapeCasts ⟨2, ![1, n]⟩)
    (hb : (⟨2, ![1, n]⟩ : Shape).Broadcasts ⟨2, ![m, n]⟩) (p : Fin m) (q : Fin n) :
    addf (shapeCast ⟨2, ![m, n]⟩ x hx) (broadcastTo ⟨2, ![m, n]⟩ (shapeCast ⟨2, ![1, n]⟩ r hr) hb) (ix2 p q)
      = x (ix2 p q) + r (ix2 (0 : Fin 1) q) := by
  rw [shapeCast_self, shapeCast_self]
  exact congrArg (x (ix2 p q) + ·) (broadcastTo_1b_ab_apply r hb p q)

/-- The whole tile at (p, q): the exponential linear unit of that sum. -/
theorem biasEluTile_apply {m n : Nat} (x : FVec Ideal ⟨2, ![m, n]⟩ .f32) (r : FVec Ideal ⟨2, ![1, n]⟩ .f32)
    (hx : (⟨2, ![m, n]⟩ : Shape).ShapeCasts ⟨2, ![m, n]⟩) (hr : (⟨2, ![1, n]⟩ : Shape).ShapeCasts ⟨2, ![1, n]⟩)
    (hb : (⟨2, ![1, n]⟩ : Shape).Broadcasts ⟨2, ![m, n]⟩) (p : Fin m) (q : Fin n) :
    select (cmpf .ogt (addf (shapeCast ⟨2, ![m, n]⟩ x hx) (broadcastTo ⟨2, ![m, n]⟩ (shapeCast ⟨2, ![1, n]⟩ r hr) hb))
          (broadcast ⟨2, ![m, n]⟩ (Scalar.ofBits (F := Ideal) .f32 0x00000000#32)))
        (addf (shapeCast ⟨2, ![m, n]⟩ x hx) (broadcastTo ⟨2, ![m, n]⟩ (shapeCast ⟨2, ![1, n]⟩ r hr) hb))
        (subf (exp (minimumf (addf (shapeCast ⟨2, ![m, n]⟩ x hx) (broadcastTo ⟨2, ![m, n]⟩ (shapeCast ⟨2, ![1, n]⟩ r hr) hb))
            (broadcast ⟨2, ![m, n]⟩ (Scalar.ofBits (F := Ideal) .f32 0x00000000#32))))
          (broadcast ⟨2, ![m, n]⟩ (Scalar.ofBits (F := Ideal) .f32 0x3F800000#32))) (ix2 p q)
      = elu1 (x (ix2 p q) + r (ix2 (0 : Fin 1) q)) :=
  (tileElu1 (addf (shapeCast ⟨2, ![m, n]⟩ x hx) (broadcastTo ⟨2, ![m, n]⟩ (shapeCast ⟨2, ![1, n]⟩ r hr) hb) (ix2 p q))).trans
    (congrArg elu1 (addRowTile_apply x r hx hr hb p q))

end Cert.KernelIdeal.Hand

end
-- ==== Proof.Region1.lean ====
import proofs.«123122_j81329500717148_1_alg».proof.Proof.Gen.KernelIdeal.Frame
import proofs.«123122_j81329500717148_1_alg».proof.Proof.Spec
import proofs.«123122_j81329500717148_1_alg».proof.Proof.BiasEluTile

noncomputable section

namespace Cert.KernelIdeal.Hand

open Idealize.ShloMosaic Idealize.ShloMosaic.TcCoe Idealize.ShloMosaic.ValueIdx Idealize.SL.Sem Cert.KernelIdeal Cert.Layers Cert.Gcn

/-- The two zero offsets of a rank-2 rectangle, as the constant function. -/
theorem r1_zeros2 : (![0, 0] : Fin 2 → Nat) = fun _ => 0 := funext fun a => by fin_cases a <;> rfl

/-- The tile's payload at an entry: the exponential linear unit of the input block's entry plus the bias row's entry of the column. -/
theorem r1_pay_apply (x0 : Vec Ideal S10000x128 .f32) (x1 : Vec Ideal S1x128 .f32) (p : Fin 10000) (q : Fin 128) :
    Gen.k1_pay1 (F := Ideal) x0 x1 (ix2 p q) = elu1 (x0 (ix2 p q) + x1 (ix2 (0 : Fin 1) q)) :=
  biasEluTile_apply x0 x1 Gen.shapeCasts_S10000x128_S10000x128 Gen.shapeCasts_S1x128_S1x128 Gen.broadcasts_S1x128_S10000x128 p q

/-- The tile's entry (p, q) from the arrays' entries: when the input block's entry (p, q) is entry i of an array and the bias
    block's entry q is the bias array's entry of i's column. -/
theorem r1_pay_entry (x0 : Vec Ideal S10000x128 .f32) (x1 : Vec Ideal S1x128 .f32) (a : Mat 100000 128) (r : Mat 1 128)
    (p : Fin 10000) (q : Fin 128) (i : S100000x128.Idx)
    (h0 : x0 (ix2 p q) = a i) (h1 : x1 (ix2 (0 : Fin 1) q) = r (ix2 (0 : Fin 1) (i 1))) :
    Gen.k1_pay1 (F := Ideal) x0 x1 (ix2 p q) = elu (addRow a r) i :=
  (r1_pay_apply x0 x1 p q).trans (by rw [h0, h1]; rfl)

/-- The printed index maps over the grid: at point t the input and output blocks are block row t, column block 0; the bias
    block is always block (0, 0). -/
theorem r1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function: rows 10000 t … 10000 t + 9999 of
    elu (input + bias row). -/
theorem r1_flushed_eq (V : (c : Dev nD) → (b : Ref sig .tc) → Buf (Elt Ideal) ((c : Thread nD τ).loc b)) (c : Dev nD) (t : Fin cfg1.N) :
    (Gen.dat1 (F := Ideal) V c).flushed 2 t = ((cfg1.win 2).blk t).view.read (Elt Ideal)
      (elu (addRow (m := 100000) (n := 128) (V c (Pipeline.arrRef spec1 0)) (V c (Pipeline.arrRef spec1 1)))) := by
  show (cfg1.win 2).cut (grid1.coords t) ((Gen.dat1 V c).after 2 t) = _
  rw [Gen.after1_2]
  unfold Gen.out1_2
  rw [View.canon_unit_zero r1_zeros2]
  simp only [View.ld_unit_zero (S := S10000x128) r1_zeros2, View.ld_unit_zero (S := S1x128) r1_zeros2]
  obtain ⟨e00, e01, e10, e11, e20, e21⟩ := r1_idx_facts t
  funext j
  obtain ⟨p, q, rfl⟩ : ∃ (p : Fin 10000) (q : Fin 128), j = ix2 p q := ⟨j 0, j 1, eq_ix2 (n0 := 10000) (n1 := 128) j⟩
  refine r1_pay_entry (Gen.iblk1 V c 0 t) (Gen.iblk1 V c 1 t) (V c (Pipeline.arrRef spec1 0)) (V c (Pipeline.arrRef spec1 1)) p q
    (((cfg1.win 2).blk t).view.emb (ix2 p q)) ?_ ?_
  · show V c (Pipeline.arrRef spec1 0) (((cfg1.win 0).blk t).view.emb (ix2 p q))
      = V c (Pipeline.arrRef spec1 0) (((cfg1.win 2).blk t).view.emb (ix2 p q))
    refine congrArg (V c (Pipeline.arrRef spec1 0)) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  · show V c (Pipeline.arrRef spec1 1) (((cfg1.win 1).blk t).view.emb (ix2 (0 : Fin 1) q))
      = V c (Pipeline.arrRef spec1 1) (ix2 (0 : Fin 1) (((cfg1.win 2).blk t).view.emb (ix2 p q) 1))
    refine congrArg (V c (Pipeline.arrRef spec1 1)) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- Every entry of the output array is in some point's block: row r is in block row r / 10000. -/
theorem r1_covered (i : S100000x128.Idx) :
    ∃ t : Fin cfg1.N, (cfg1.win 2).flush t = true ∧ i ∈ ((cfg1.win 2).blk t).view.set := by
  have hN : cfg1.N = 10 := Gen.N_1
  have hi0 : (i 0).val < 100000 := (i 0).isLt
  have hi1 : (i 1).val < 128 := (i 1).isLt
  have ht : (i 0).val / 10000 < cfg1.N := by omega
  obtain ⟨t, htv⟩ : ∃ t : Fin cfg1.N, t.val = (i 0).val / 10000 := ⟨⟨_, ht⟩, rfl⟩
  obtain ⟨-, -, -, -, e20, e21⟩ := r1_idx_facts t
  refine ⟨t, Gen.flush1_2 t, ?_⟩
  show i ∈ ((View.whole main_v17).slice (win1_2.rect t)).set
  rw [View.set_slice_whole, Rect.mem_set_unit]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- Region 1 (bias and elu, tiled over blocks of 10000 rows), whatever the buffers hold when it is entered: its output array
    ends at elu of the input array plus the one-row bias array's entry of the column. -/
theorem region1_out (V : (c : Dev nD) → (b : Ref sig .tc) → Buf (Elt Ideal) ((c : Thread nD τ).loc b)) (c : Dev nD) :
    ((Gen.dat1 (F := Ideal) V c).arrAt 2 cfg1.N : S100000x128.Idx → EReal)
      = elu (addRow (m := 100000) (n := 128) (V c (Pipeline.arrRef spec1 0)) (V c (Pipeline.arrRef spec1 1))) :=
  (Gen.dat1 (F := Ideal) V c).arrAt_eq_of_cover 2
    (elu (addRow (m := 100000) (n := 128) (V c (Pipeline.arrRef spec1 0)) (V c (Pipeline.arrRef spec1 1))))
    (fun t _ => r1_flushed_eq V c t) r1_covered

end Cert.KernelIdeal.Hand

end
-- ==== Proof.Region2.lean ====
import proofs.«123122_j81329500717148_1_alg».proof.Proof.Gen.KernelIdeal.Frame
import proofs.«123122_j81329500717148_1_alg».proof.Proof.Spec
import proofs.«123122_j81329500717148_1_alg».proof.Proof.DenseTile
import Idealize.ShloMosaic.Lib.Pipeline.Value

noncomputable section

namespace Cert.KernelIdeal.Hand

open Idealize.ShloMosaic Idealize.ShloMosaic.TcCoe Idealize.ShloMosaic.ValueIdx Idealize.SL.Sem Cert.KernelIdeal Cert.Layers Cert.Gcn
open Idealize.ShloMosaic.Pipeline (Dat)

/-- The tile's payload at an entry: the 128-term sum of products plus the bias row's entry of the column. -/
theorem dense2_pay (x0 : Vec Ideal S5000x128 .f32) (x1 : Vec Ideal S128x128 .f32) (x2 : Vec Ideal S1x128 .f32)
    (p : Fin 5000) (q : Fin 128) :
    Gen.k2_pay1 x0 x1 x2 (ix2 p q)
      = mm (m := 5000) (k := 128) (n := 128) x0 x1 (ix2 p q) + x2 (ix2 (0 : Fin 1) q) := by
  unfold Gen.k2_pay1
  exact denseTile_apply dot_S5000x128_S128x128_S5000x128_1_0_0_1_n_n dot_S5000x128_S128x128_S5000x128_1_0_0_1_n_n.wf rfl
    x0 (shapeCast S5000x128 x0 Gen.shapeCasts_S5000x128_S5000x128) (shapeCast_self x0 Gen.shapeCasts_S5000x128_S5000x128) x1 x2 Gen.bitsLt_bf16_f32 Gen.shapeCasts_S1x128_S1x128 Gen.broadcasts_S1x128_S5000x128 p q

/-- The index maps over the grid: the input's and the output's blocks move down the rows with the point, the weight's and
    the bias's stay. -/
theorem dense2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is rows 5000 t … 5000 t + 4999 of the layer of the arrays the region finds. -/
theorem dense2_flushed (V : (c : Dev nD) → (b : Ref sig .tc) → Buf (Elt Ideal) ((c : Thread nD τ).loc b)) (c : Dev nD)
    (t : Fin cfg2.N) :
    (Gen.dat2 (F := Ideal) V c).flushed 3 t
      = ((cfg2.win 3).blk t).view.read (Elt Ideal)
          (addRow (mm (m := 100000) (k := 128) (n := 128) (V c (Pipeline.arrRef spec2 0)) (V c (Pipeline.arrRef spec2 1)))
            (V c (Pipeline.arrRef spec2 2))) := by
  show (cfg2.win 3).cut (grid2.coords t) ((Gen.dat2 V c).after 3 t) = _
  rw [Gen.after2_3]
  unfold Gen.out2_3
  rw [View.canon_unit_zero offsets_zero]
  simp only [View.ld_unit_zero (S := S5000x128) offsets_zero,
    View.ld_unit_zero (S := S128x128) offsets_zero,
    View.ld_unit_zero (S := S1x128) offsets_zero]
  obtain ⟨e00, e01, e10, e11, e20, e21, e30, e31⟩ := dense2_idx t
  have ht : t.val < 20 := lt_of_lt_of_eq t.isLt Gen.N_2
  refine funext fun (j : S5000x128.Idx) => ?_
  obtain ⟨p, q, rfl⟩ : ∃ (p : Fin 5000) (q : Fin 128), j = ix2 p q := ⟨j 0, j 1, eq_ix2 j⟩
  show Gen.k2_pay1 (Gen.iblk2 V c 0 t) (Gen.iblk2 V c 1 t) (Gen.iblk2 V c 2 t) (ix2 p q)
    = (addRow (mm (m := 100000) (k := 128) (n := 128) (V c (Pipeline.arrRef spec2 0)) (V c (Pipeline.arrRef spec2 1)))
        (V c (Pipeline.arrRef spec2 2))) (((cfg2.win 3).blk t).view.emb (ix2 p q))
  refine (dense2_pay (Gen.iblk2 V c 0 t) (Gen.iblk2 V c 1 t) (Gen.iblk2 V c 2 t) p q).trans ?_
  have hemb : ((cfg2.win 3).blk t).view.emb (ix2 p q)
      = (ix2 (⟨5000 * t.val + p.val, by omega⟩ : Fin 100000) q : S100000x128.Idx) := by
    funext a; apply Fin.ext
    match a with
    | ⟨0, _⟩ => show win2_3.index t (0 : Fin 2) * 5000 + 1 * p.val = 5000 * t.val + p.val; omega
    | ⟨1, _⟩ => show win2_3.index t (1 : Fin 2) * 128 + 1 * q.val = q.val; omega
  rw [hemb]
  refine addRow_mm_tile (M := 100000) (K := 128) (N := 128) (B := 5000)
    (V c (Pipeline.arrRef spec2 0)) (V c (Pipeline.arrRef spec2 1)) (V c (Pipeline.arrRef spec2 2))
    (Gen.iblk2 V c 0 t) (Gen.iblk2 V c 1 t) (Gen.iblk2 V c 2 t) ⟨5000 * t.val + p.val, by omega⟩ p q
    (fun j => ?_) (fun j => ?_) ?_
  · show (V c (Pipeline.arrRef spec2 0) : S100000x128.Idx → EReal) (((cfg2.win 0).blk t).view.emb (ix2 p j))
      = (V c (Pipeline.arrRef spec2 0) : S100000x128.Idx → EReal) (ix2 (⟨5000 * t.val + p.val, by omega⟩ : Fin 100000) j)
    refine congrArg (V c (Pipeline.arrRef spec2 0) : S100000x128.Idx → EReal) (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * j.val = j.val; omega
  · show (V c (Pipeline.arrRef spec2 1) : S128x128.Idx → EReal) (((cfg2.win 1).blk t).view.emb (ix2 j q))
      = (V c (Pipeline.arrRef spec2 1) : S128x128.Idx → EReal) (ix2 j q)
    refine congrArg (V c (Pipeline.arrRef spec2 1) : S128x128.Idx → EReal) (funext fun a => Fin.ext ?_)
    match a with
    | ⟨0, _⟩ => show win2_1.index t (0 : Fin 2) * 128 + 1 * j.val = j.val; omega
    | ⟨1, _⟩ => show win2_1.index t (1 : Fin 2) * 128 + 1 * q.val = q.val; omega
  · show (V c (Pipeline.arrRef spec2 2) : S1x128.Idx → EReal) (((cfg2.win 2).blk t).view.emb (ix2 (0 : Fin 1) q))
      = (V c (Pipeline.arrRef spec2 2) : S1x128.Idx → EReal) (ix2 (0 : Fin 1) q)
    refine congrArg (V c (Pipeline.arrRef spec2 2) : S1x128.Idx → EReal) (funext fun a => Fin.ext ?_)
    match a with
    | ⟨0, _⟩ => show win2_2.index t (0 : Fin 2) * 1 + 1 * (0 : Fin 1).val = (0 : Fin 1).val; omega
    | ⟨1, _⟩ => show win2_2.index t (1 : Fin 2) * 128 + 1 * q.val = q.val; omega

/-- An index of the output array is in point t's block iff each coordinate is in the block's range on its axis. -/
theorem dense2_mem (t : Fin cfg2.N) (i : S100000x128.Idx) :
    i ∈ ((cfg2.win 3).blk t).view.set
      ↔ ∀ a : Fin 2, win2_3.index t a * S5000x128.size a ≤ (i a).val
          ∧ (i a).val < win2_3.index t a * S5000x128.size a + S5000x128.size a := by
  show i ∈ ((View.whole main_v19).slice (win2_3.rect t)).set ↔ _
  rw [View.set_slice_whole, Rect.mem_set_unit]
  exact Iff.rfl

/-- Row r of the output array is written back by point r / 5000. -/
theorem dense2_cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := Gen.N_2
  have hlt : (i 0).val / 5000 < cfg2.N := by rw [hN]; omega
  obtain ⟨-, -, -, -, -, -, e30, e31⟩ := dense2_idx ⟨(i 0).val / 5000, hlt⟩
  refine ⟨⟨(i 0).val / 5000, hlt⟩, Gen.flush2_3 _, ?_⟩
  rw [dense2_mem]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    rw [e31]
    omega

/-- Region 2 (a dense layer tiled over blocks of 5000 rows), whatever the buffers hold when it is entered: its output array ends at
    a · w plus the one-row bias array's entry of the column. -/
theorem region2_out (V : (c : Dev nD) → (b : Ref sig .tc) → Buf (Elt Ideal) ((c : Thread nD τ).loc b)) (c : Dev nD) :
    ((Gen.dat2 (F := Ideal) V c).arrAt 3 cfg2.N : S100000x128.Idx → EReal)
      = addRow (mm (m := 100000) (k := 128) (n := 128) (V c (Pipeline.arrRef spec2 0)) (V c (Pipeline.arrRef spec2 1)))
          (V c (Pipeline.arrRef spec2 2)) :=
  (Gen.dat2 (F := Ideal) V c).arrAt_eq_of_cover 3
    (addRow (mm (m := 100000) (k := 128) (n := 128) (V c (Pipeline.arrRef spec2 0)) (V c (Pipeline.arrRef spec2 1)))
      (V c (Pipeline.arrRef spec2 2)))
    (fun t _ => dense2_flushed V c t) dense2_cover

end Cert.KernelIdeal.Hand

end
-- ==== Proof.Region3.lean ====
import proofs.«123122_j81329500717148_1_alg».proof.Proof.Gen.KernelIdeal.Frame
import proofs.«123122_j81329500717148_1_alg».proof.Proof.Spec
import proofs.«123122_j81329500717148_1_alg».proof.Proof.BiasEluTile

noncomputable section

namespace Cert.KernelIdeal.Hand

open Idealize.ShloMosaic Idealize.ShloMosaic.TcCoe Idealize.ShloMosaic.ValueIdx Idealize.SL.Sem Cert.KernelIdeal Cert.Layers Cert.Gcn

/-- The two zero offsets of a rank-2 rectangle, as the constant function. -/
theorem r3_zeros2 : (![0, 0] : Fin 2 → Nat) = fun _ => 0 := funext fun a => by fin_cases a <;> rfl

/-- The tile's payload at an entry: the exponential linear unit of the input block's entry plus the bias row's entry of the column. -/
theorem r3_pay_apply (x0 : Vec Ideal S10000x128 .f32) (x1 : Vec Ideal S1x128 .f32) (p : Fin 10000) (q : Fin 128) :
    Gen.k3_pay1 (F := Ideal) x0 x1 (ix2 p q) = elu1 (x0 (ix2 p q) + x1 (ix2 (0 : Fin 1) q)) :=
  biasEluTile_apply x0 x1 Gen.shapeCasts_S10000x128_S10000x128 Gen.shapeCasts_S1x128_S1x128 Gen.broadcasts_S1x128_S10000x128 p q

/-- The tile's entry (p, q) from the arrays' entries: when the input block's entry (p, q) is entry i of an array and the bias
    block's entry q is the bias array's entry of i's column. -/
theorem r3_pay_entry (x0 : Vec Ideal S10000x128 .f32) (x1 : Vec Ideal S1x128 .f32) (a : Mat 100000 128) (r : Mat 1 128)
    (p : Fin 10000) (q : Fin 128) (i : S100000x128.Idx)
    (h0 : x0 (ix2 p q) = a i) (h1 : x1 (ix2 (0 : Fin 1) q) = r (ix2 (0 : Fin 1) (i 1))) :
    Gen.k3_pay1 (F := Ideal) x0 x1 (ix2 p q) = elu (addRow a r) i :=
  (r3_pay_apply x0 x1 p q).trans (by rw [h0, h1]; rfl)

/-- The printed index maps over the grid: at point t the input and output blocks are block row t, column block 0; the bias
    block is always block (0, 0). -/
theorem r3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function: rows 10000 t … 10000 t + 9999 of
    elu (input + bias row). -/
theorem r3_flushed_eq (V : (c : Dev nD) → (b : Ref sig .tc) → Buf (Elt Ideal) ((c : Thread nD τ).loc b)) (c : Dev nD) (t : Fin cfg3.N) :
    (Gen.dat3 (F := Ideal) V c).flushed 2 t = ((cfg3.win 2).blk t).view.read (Elt Ideal)
      (elu (addRow (m := 100000) (n := 128) (V c (Pipeline.arrRef spec3 0)) (V c (Pipeline.arrRef spec3 1)))) := by
  show (cfg3.win 2).cut (grid3.coords t) ((Gen.dat3 V c).after 2 t) = _
  rw [Gen.after3_2]
  unfold Gen.out3_2
  rw [View.canon_unit_zero r3_zeros2]
  simp only [View.ld_unit_zero (S := S10000x128) r3_zeros2, View.ld_unit_zero (S := S1x128) r3_zeros2]
  obtain ⟨e00, e01, e10, e11, e20, e21⟩ := r3_idx_facts t
  funext j
  obtain ⟨p, q, rfl⟩ : ∃ (p : Fin 10000) (q : Fin 128), j = ix2 p q := ⟨j 0, j 1, eq_ix2 (n0 := 10000) (n1 := 128) j⟩
  refine r3_pay_entry (Gen.iblk3 V c 0 t) (Gen.iblk3 V c 1 t) (V c (Pipeline.arrRef spec3 0)) (V c (Pipeline.arrRef spec3 1)) p q
    (((cfg3.win 2).blk t).view.emb (ix2 p q)) ?_ ?_
  · show V c (Pipeline.arrRef spec3 0) (((cfg3.win 0).blk t).view.emb (ix2 p q))
      = V c (Pipeline.arrRef spec3 0) (((cfg3.win 2).blk t).view.emb (ix2 p q))
    refine congrArg (V c (Pipeline.arrRef spec3 0)) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * q.val = win3_2.index t (1 : Fin 2) * 128 + 1 * q.val; omega
  · show V c (Pipeline.arrRef spec3 1) (((cfg3.win 1).blk t).view.emb (ix2 (0 : Fin 1) q))
      = V c (Pipeline.arrRef spec3 1) (ix2 (0 : Fin 1) (((cfg3.win 2).blk t).view.emb (ix2 p q) 1))
    refine congrArg (V c (Pipeline.arrRef spec3 1)) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- Every entry of the output array is in some point's block: row r is in block row r / 10000. -/
theorem r3_covered (i : S100000x128.Idx) :
    ∃ t : Fin cfg3.N, (cfg3.win 2).flush t = true ∧ i ∈ ((cfg3.win 2).blk t).view.set := by
  have hN : cfg3.N = 10 := Gen.N_3
  have hi0 : (i 0).val < 100000 := (i 0).isLt
  have hi1 : (i 1).val < 128 := (i 1).isLt
  have ht : (i 0).val / 10000 < cfg3.N := by omega
  obtain ⟨t, htv⟩ : ∃ t : Fin cfg3.N, t.val = (i 0).val / 10000 := ⟨⟨_, ht⟩, rfl⟩
  obtain ⟨-, -, -, -, e20, e21⟩ := r3_idx_facts t
  refine ⟨t, Gen.flush3_2 t, ?_⟩
  show i ∈ ((View.whole main_v34).slice (win3_2.rect t)).set
  rw [View.set_slice_whole, Rect.mem_set_unit]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- Region 3 (bias and elu, tiled over blocks of 10000 rows), whatever the buffers hold when it is entered: its output array
    ends at elu of the input array plus the one-row bias array's entry of the column. -/
theorem region3_out (V : (c : Dev nD) → (b : Ref sig .tc) → Buf (Elt Ideal) ((c : Thread nD τ).loc b)) (c : Dev nD) :
    ((Gen.dat3 (F := Ideal) V c).arrAt 2 cfg3.N : S100000x128.Idx → EReal)
      = elu (addRow (m := 100000) (n := 128) (V c (Pipeline.arrRef spec3 0)) (V c (Pipeline.arrRef spec3 1))) :=
  (Gen.dat3 (F := Ideal) V c).arrAt_eq_of_cover 2
    (elu (addRow (m := 100000) (n := 128) (V c (Pipeline.arrRef spec3 0)) (V c (Pipeline.arrRef spec3 1))))
    (fun t _ => r3_flushed_eq V c t) r3_covered

end Cert.KernelIdeal.Hand

end
-- ==== Proof.Region4.lean ====
import proofs.«123122_j81329500717148_1_alg».proof.Proof.Gen.KernelIdeal.Frame
import proofs.«123122_j81329500717148_1_alg».proof.Proof.Spec
import proofs.«123122_j81329500717148_1_alg».proof.Proof.DenseTile
import Idealize.ShloMosaic.Lib.Pipeline.Value

noncomputable section

namespace Cert.KernelIdeal.Hand

open Idealize.ShloMosaic Idealize.ShloMosaic.TcCoe Idealize.ShloMosaic.ValueIdx Idealize.SL.Sem Cert.KernelIdeal Cert.Layers Cert.Gcn

/-- The tile's payload at an entry: the exponential linear unit of the 128-term sum of products plus the bias row's entry of
    the column. -/
theorem dense4_pay (x0 : Vec Ideal S5000x128 .f32) (x1 : Vec Ideal S128x200 .f32) (x2 : Vec Ideal S1x200 .f32)
    (p : Fin 5000) (q : Fin 200) :
    Gen.k4_pay1 x0 x1 x2 (ix2 p q)
      = elu1 (mm (m := 5000) (k := 128) (n := 200) x0 x1 (ix2 p q) + x2 (ix2 (0 : Fin 1) q)) := by
  unfold Gen.k4_pay1
  exact (eluTile_apply
      (addf (matmul dot_S5000x128_S128x200_S5000x200_1_0_0_1_n_n none
          (truncf .bf16 (shapeCast S5000x128 x0 Gen.shapeCasts_S5000x128_S5000x128) Gen.bitsLt_bf16_f32)
          (truncf .bf16 x1 Gen.bitsLt_bf16_f32) (constant S5000x200 .f32 0x00000000#32))
        (broadcastTo S5000x200 (shapeCast S1x200 x2 Gen.shapeCasts_S1x200_S1x200) Gen.broadcasts_S1x200_S5000x200))
      (ix2 p q)).trans
    (congrArg elu1
      (denseTile_apply dot_S5000x128_S128x200_S5000x200_1_0_0_1_n_n dot_S5000x128_S128x200_S5000x200_1_0_0_1_n_n.wf rfl
        x0 (shapeCast S5000x128 x0 Gen.shapeCasts_S5000x128_S5000x128) (shapeCast_self x0 Gen.shapeCasts_S5000x128_S5000x128)
        x1 x2 Gen.bitsLt_bf16_f32 Gen.shapeCasts_S1x200_S1x200 Gen.broadcasts_S1x200_S5000x200 p q))

/-- The index maps over the grid: the input's and the output's blocks move down the rows with the point, the weight's and
    the bias's stay. -/
theorem dense4_idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is rows 5000 t … 5000 t + 4999 of the layer, under the unit, of the arrays the region finds. -/
theorem dense4_flushed (V : (c : Dev nD) → (b : Ref sig .tc) → Buf (Elt Ideal) ((c : Thread nD τ).loc b)) (c : Dev nD)
    (t : Fin cfg4.N) :
    (Gen.dat4 (F := Ideal) V c).flushed 3 t
      = ((cfg4.win 3).blk t).view.read (Elt Ideal)
          (elu (addRow (mm (m := 100000) (k := 128) (n := 200) (V c (Pipeline.arrRef spec4 0)) (V c (Pipeline.arrRef spec4 1)))
          (V c (Pipeline.arrRef spec4 2)))) := by
  show (cfg4.win 3).cut (grid4.coords t) ((Gen.dat4 V c).after 3 t) = _
  rw [Gen.after4_3]
  unfold Gen.out4_3
  rw [View.canon_unit_zero offsets_zero]
  simp only [View.ld_unit_zero (S := S5000x128) offsets_zero, View.ld_unit_zero (S := S128x200) offsets_zero,
    View.ld_unit_zero (S := S1x200) offsets_zero]
  obtain ⟨e00, e01, e10, e11, e20, e21, e30, e31⟩ := dense4_idx t
  have ht : t.val < 20 := lt_of_lt_of_eq t.isLt Gen.N_4
  refine funext fun (j : S5000x200.Idx) => ?_
  obtain ⟨p, q, rfl⟩ : ∃ (p : Fin 5000) (q : Fin 200), j = ix2 p q := ⟨j 0, j 1, eq_ix2 j⟩
  show Gen.k4_pay1 (Gen.iblk4 V c 0 t) (Gen.iblk4 V c 1 t) (Gen.iblk4 V c 2 t) (ix2 p q)
    = (elu (addRow (mm (m := 100000) (k := 128) (n := 200) (V c (Pipeline.arrRef spec4 0)) (V c (Pipeline.arrRef spec4 1)))
          (V c (Pipeline.arrRef spec4 2)))) (((cfg4.win 3).blk t).view.emb (ix2 p q))
  refine (dense4_pay (Gen.iblk4 V c 0 t) (Gen.iblk4 V c 1 t) (Gen.iblk4 V c 2 t) p q).trans ?_
  have hemb : ((cfg4.win 3).blk t).view.emb (ix2 p q)
      = (ix2 (⟨5000 * t.val + p.val, by omega⟩ : Fin 100000) q : S100000x200.Idx) := by
    funext a; apply Fin.ext
    match a with
    | ⟨0, _⟩ => show win4_3.index t (0 : Fin 2) * 5000 + 1 * p.val = 5000 * t.val + p.val; omega
    | ⟨1, _⟩ => show win4_3.index t (1 : Fin 2) * 200 + 1 * q.val = q.val; omega
  rw [hemb]
  refine congrArg elu1 (addRow_mm_tile (M := 100000) (K := 128) (N := 200) (B := 5000)
    (V c (Pipeline.arrRef spec4 0)) (V c (Pipeline.arrRef spec4 1)) (V c (Pipeline.arrRef spec4 2))
    (Gen.iblk4 V c 0 t) (Gen.iblk4 V c 1 t) (Gen.iblk4 V c 2 t) ⟨5000 * t.val + p.val, by omega⟩ p q
    (fun j => ?_) (fun j => ?_) ?_)
  · show (V c (Pipeline.arrRef spec4 0) : S100000x128.Idx → EReal) (((cfg4.win 0).blk t).view.emb (ix2 p j))
      = (V c (Pipeline.arrRef spec4 0) : S100000x128.Idx → EReal) (ix2 (⟨5000 * t.val + p.val, by omega⟩ : Fin 100000) j)
    refine congrArg (V c (Pipeline.arrRef spec4 0) : S100000x128.Idx → EReal) (funext fun a => Fin.ext ?_)
    match a with
    | ⟨0, _⟩ => show win4_0.index t (0 : Fin 2) * 5000 + 1 * p.val = 5000 * t.val + p.val; omega
    | ⟨1, _⟩ => show win4_0.index t (1 : Fin 2) * 128 + 1 * j.val = j.val; omega
  · show (V c (Pipeline.arrRef spec4 1) : S128x200.Idx → EReal) (((cfg4.win 1).blk t).view.emb (ix2 j q))
      = (V c (Pipeline.arrRef spec4 1) : S128x200.Idx → EReal) (ix2 j q)
    refine congrArg (V c (Pipeline.arrRef spec4 1) : S128x200.Idx → EReal) (funext fun a => Fin.ext ?_)
    match a with
    | ⟨0, _⟩ => show win4_1.index t (0 : Fin 2) * 128 + 1 * j.val = j.val; omega
    | ⟨1, _⟩ => show win4_1.index t (1 : Fin 2) * 200 + 1 * q.val = q.val; omega
  · show (V c (Pipeline.arrRef spec4 2) : S1x200.Idx → EReal) (((cfg4.win 2).blk t).view.emb (ix2 (0 : Fin 1) q))
      = (V c (Pipeline.arrRef spec4 2) : S1x200.Idx → EReal) (ix2 (0 : Fin 1) q)
    refine congrArg (V c (Pipeline.arrRef spec4 2) : S1x200.Idx → EReal) (funext fun a => Fin.ext ?_)
    match a with
    | ⟨0, _⟩ => show win4_2.index t (0 : Fin 2) * 1 + 1 * (0 : Fin 1).val = (0 : Fin 1).val; omega
    | ⟨1, _⟩ => show win4_2.index t (1 : Fin 2) * 200 + 1 * q.val = q.val; omega

/-- Row r of the output array is written back by point r / 5000. -/
theorem dense4_cover (i : S100000x200.Idx) :
    ∃ t : Fin cfg4.N, (cfg4.win 3).flush t = true ∧ i ∈ ((cfg4.win 3).blk t).view.set := by
  have hN : cfg4.N = 20 := Gen.N_4
  have hi0 : (i 0).val < 100000 := (i 0).isLt
  have hi1 : (i 1).val < 200 := (i 1).isLt
  have ht : (i 0).val / 5000 < cfg4.N := by omega
  obtain ⟨t, htv⟩ : ∃ t : Fin cfg4.N, t.val = (i 0).val / 5000 := ⟨⟨_, ht⟩, rfl⟩
  obtain ⟨-, -, -, -, -, -, e30, e31⟩ := dense4_idx t
  refine ⟨t, Gen.flush4_3 t, ?_⟩
  show i ∈ ((View.whole main_v36).slice (win4_3.rect t)).set
  rw [View.set_slice_whole, Rect.mem_set_unit]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 200 ≤ (i 1).val ∧ (i 1).val < win4_3.index t (1 : Fin 2) * 200 + 200
    omega

/-- Region 4 (a dense layer tiled over blocks of 5000 rows), whatever the buffers hold when it is entered: its output array ends at
    a · w plus the one-row bias array's entry of the column, under elu. -/
theorem region4_out (V : (c : Dev nD) → (b : Ref sig .tc) → Buf (Elt Ideal) ((c : Thread nD τ).loc b)) (c : Dev nD) :
    ((Gen.dat4 (F := Ideal) V c).arrAt 3 cfg4.N : S100000x200.Idx → EReal)
      = elu (addRow (mm (m := 100000) (k := 128) (n := 200) (V c (Pipeline.arrRef spec4 0)) (V c (Pipeline.arrRef spec4 1)))
          (V c (Pipeline.arrRef spec4 2))) :=
  (Gen.dat4 (F := Ideal) V c).arrAt_eq_of_cover 3
    (elu (addRow (mm (m := 100000) (k := 128) (n := 200) (V c (Pipeline.arrRef spec4 0)) (V c (Pipeline.arrRef spec4 1)))
          (V c (Pipeline.arrRef spec4 2))))
    (fun t _ => dense4_flushed V c t) dense4_cover

end Cert.KernelIdeal.Hand

end
-- ==== Proof.Region5.lean ====
import proofs.«123122_j81329500717148_1_alg».proof.Proof.Gen.KernelIdeal.Frame
import proofs.«123122_j81329500717148_1_alg».proof.Proof.Spec
import proofs.«123122_j81329500717148_1_alg».proof.Proof.DenseTile
import Idealize.ShloMosaic.Lib.Pipeline.Value

noncomputable section

namespace Cert.KernelIdeal.Hand

open Idealize.ShloMosaic Idealize.ShloMosaic.TcCoe Idealize.ShloMosaic.ValueIdx Idealize.SL.Sem Cert.KernelIdeal Cert.Layers Cert.Gcn

/-- The tile's payload at an entry: the 200-term sum of products plus the bias row's entry of the column. -/
theorem dense5_pay (x0 : Vec Ideal S5000x200 .f32) (x1 : Vec Ideal S200x40 .f32) (x2 : Vec Ideal S1x40 .f32)
    (p : Fin 5000) (q : Fin 40) :
    Gen.k5_pay1 x0 x1 x2 (ix2 p q)
      = mm (m := 5000) (k := 200) (n := 40) x0 x1 (ix2 p q) + x2 (ix2 (0 : Fin 1) q) := by
  unfold Gen.k5_pay1
  exact denseTile_apply dot_S5000x200_S200x40_S5000x40_1_0_0_1_n_n dot_S5000x200_S200x40_S5000x40_1_0_0_1_n_n.wf rfl
    x0 (shapeCast S5000x200 x0 Gen.shapeCasts_S5000x200_S5000x200) (shapeCast_self x0 Gen.shapeCasts_S5000x200_S5000x200)
    x1 x2 Gen.bitsLt_bf16_f32 Gen.shapeCasts_S1x40_S1x40 Gen.broadcasts_S1x40_S5000x40 p q

/-- The tile's entry (p, q) is the whole-array layer's entry (P, q), when row p of the tile's input block is row P of the input
    array and the weight and bias blocks are the weight and bias arrays. -/
theorem dense5_entry (A0 : Mat 100000 200) (A1 : Mat 200 40) (A2 : Mat 1 40)
    (x0 : Vec Ideal S5000x200 .f32) (x1 : Vec Ideal S200x40 .f32) (x2 : Vec Ideal S1x40 .f32)
    (P : Fin 100000) (p : Fin 5000) (q : Fin 40)
    (h0 : ∀ j : Fin 200, x0 (ix2 p j) = A0 (ix2 P j)) (h1 : ∀ j : Fin 200, x1 (ix2 j q) = A1 (ix2 j q))
    (h2 : x2 (ix2 (0 : Fin 1) q) = A2 (ix2 (0 : Fin 1) q)) :
    Gen.k5_pay1 x0 x1 x2 (ix2 p q) = addRow (mm A0 A1) A2 (ix2 P q) :=
  (dense5_pay x0 x1 x2 p q).trans (addRow_mm_tile A0 A1 A2 x0 x1 x2 P p q h0 h1 h2)

/-- The index maps over the grid: the input's and the output's blocks move down the rows with the point, the weight's and
    the bias's stay. -/
theorem dense5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Entry (p, q) of the output's block at point t sits in the output array at row 5000 t + p, column q. -/
theorem dense5_outAt (t : Fin cfg5.N) (p : Fin 5000) (q : Fin 40) (P : Fin 100000) (hP : P.val = 5000 * t.val + p.val) :
    ((cfg5.win 3).blk t).view.emb (ix2 p q) = (ix2 P q : S100000x40.Idx) := by
  obtain ⟨-, -, -, -, -, -, e30, e31⟩ := dense5_idx t
  funext a; apply Fin.ext
  match a with
  | ⟨0, _⟩ => show win5_3.index t (0 : Fin 2) * 5000 + 1 * p.val = P.val; omega
  | ⟨1, _⟩ => show win5_3.index t (1 : Fin 2) * 40 + 1 * q.val = q.val; omega

/-- Entry (p, j) of the input's block at point t is the input array's entry of row 5000 t + p, column j. -/
theorem dense5_inAt (A : S100000x200.Idx → EReal) (t : Fin cfg5.N) (p : Fin 5000) (j : Fin 200) (P : Fin 100000)
    (hP : P.val = 5000 * t.val + p.val) :
    A (((cfg5.win 0).blk t).view.emb (ix2 p j)) = A (ix2 P j) := by
  obtain ⟨e00, e01, -⟩ := dense5_idx t
  refine congrArg A (funext fun a => Fin.ext ?_)
  match a with
  | ⟨0, _⟩ => show win5_0.index t (0 : Fin 2) * 5000 + 1 * p.val = P.val; omega
  | ⟨1, _⟩ => show win5_0.index t (1 : Fin 2) * 200 + 1 * j.val = j.val; omega

/-- The weight's block at any point is the weight array. -/
theorem dense5_weightAt (A : S200x40.Idx → EReal) (t : Fin cfg5.N) (j : Fin 200) (q : Fin 40) :
    A (((cfg5.win 1).blk t).view.emb (ix2 j q)) = A (ix2 j q) := by
  obtain ⟨-, -, e10, e11, -⟩ := dense5_idx t
  refine congrArg A (funext fun a => Fin.ext ?_)
  match a with
  | ⟨0, _⟩ => show win5_1.index t (0 : Fin 2) * 200 + 1 * j.val = j.val; omega
  | ⟨1, _⟩ => show win5_1.index t (1 : Fin 2) * 40 + 1 * q.val = q.val; omega

/-- The bias row's block at any point is the bias row array. -/
theorem dense5_biasAt (A : S1x40.Idx → EReal) (t : Fin cfg5.N) (q : Fin 40) :
    A (((cfg5.win 2).blk t).view.emb (ix2 (0 : Fin 1) q)) = A (ix2 (0 : Fin 1) q) := by
  obtain ⟨-, -, -, -, e20, e21, -⟩ := dense5_idx t
  refine congrArg A (funext fun a => Fin.ext ?_)
  match a with
  | ⟨0, _⟩ => show win5_2.index t (0 : Fin 2) * 1 + 1 * (0 : Fin 1).val = (0 : Fin 1).val; omega
  | ⟨1, _⟩ => show win5_2.index t (1 : Fin 2) * 40 + 1 * q.val = q.val; omega

/-- What point t writes back is rows 5000 t … 5000 t + 4999 of the layer of the arrays the region finds. -/
theorem dense5_flushed (V : (c : Dev nD) → (b : Ref sig .tc) → Buf (Elt Ideal) ((c : Thread nD τ).loc b)) (c : Dev nD)
    (t : Fin cfg5.N) :
    (Gen.dat5 (F := Ideal) V c).flushed 3 t
      = ((cfg5.win 3).blk t).view.read (Elt Ideal)
          (addRow (mm (m := 100000) (k := 200) (n := 40) (V c (Pipeline.arrRef spec5 0)) (V c (Pipeline.arrRef spec5 1)))
          (V c (Pipeline.arrRef spec5 2))) := by
  show (cfg5.win 3).cut (grid5.coords t) ((Gen.dat5 V c).after 3 t) = _
  rw [Gen.after5_3]
  unfold Gen.out5_3
  rw [View.canon_unit_zero offsets_zero]
  simp only [View.ld_unit_zero (S := S5000x200) offsets_zero, View.ld_unit_zero (S := S200x40) offsets_zero,
    View.ld_unit_zero (S := S1x40) offsets_zero]
  have ht : t.val < 20 := lt_of_lt_of_eq t.isLt Gen.N_5
  refine funext fun (j : S5000x40.Idx) => ?_
  obtain ⟨p, q, rfl⟩ : ∃ (p : Fin 5000) (q : Fin 40), j = ix2 p q := ⟨j 0, j 1, eq_ix2 j⟩
  obtain ⟨P, hP⟩ : ∃ P : Fin 100000, P.val = 5000 * t.val + p.val := ⟨⟨5000 * t.val + p.val, by omega⟩, rfl⟩
  show Gen.k5_pay1 (Gen.iblk5 V c 0 t) (Gen.iblk5 V c 1 t) (Gen.iblk5 V c 2 t) (ix2 p q)
    = (addRow (mm (m := 100000) (k := 200) (n := 40) (V c (Pipeline.arrRef spec5 0)) (V c (Pipeline.arrRef spec5 1)))
          (V c (Pipeline.arrRef spec5 2))) (((cfg5.win 3).blk t).view.emb (ix2 p q))
  rw [dense5_outAt t p q P hP]
  exact dense5_entry (V c (Pipeline.arrRef spec5 0)) (V c (Pipeline.arrRef spec5 1)) (V c (Pipeline.arrRef spec5 2))
    (Gen.iblk5 V c 0 t) (Gen.iblk5 V c 1 t) (Gen.iblk5 V c 2 t) P p q
    (fun j => dense5_inAt (V c (Pipeline.arrRef spec5 0)) t p j P hP)
    (fun j => dense5_weightAt (V c (Pipeline.arrRef spec5 1)) t j q)
    (dense5_biasAt (V c (Pipeline.arrRef spec5 2)) t q)

/-- Row r of the output array is written back by point r / 5000. -/
theorem dense5_cover (i : S100000x40.Idx) :
    ∃ t : Fin cfg5.N, (cfg5.win 3).flush t = true ∧ i ∈ ((cfg5.win 3).blk t).view.set := by
  have hN : cfg5.N = 20 := Gen.N_5
  have hi0 : (i 0).val < 100000 := (i 0).isLt
  have hi1 : (i 1).val < 40 := (i 1).isLt
  have ht : (i 0).val / 5000 < cfg5.N := by omega
  obtain ⟨t, htv⟩ : ∃ t : Fin cfg5.N, t.val = (i 0).val / 5000 := ⟨⟨_, ht⟩, rfl⟩
  obtain ⟨-, -, -, -, -, -, e30, e31⟩ := dense5_idx t
  refine ⟨t, Gen.flush5_3 t, ?_⟩
  show i ∈ ((View.whole main_v38).slice (win5_3.rect t)).set
  rw [View.set_slice_whole, Rect.mem_set_unit]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 40 ≤ (i 1).val ∧ (i 1).val < win5_3.index t (1 : Fin 2) * 40 + 40
    omega

/-- Region 5 (a dense layer tiled over blocks of 5000 rows), whatever the buffers hold when it is entered: its output array ends at
    a · w plus the one-row bias array's entry of the column. -/
theorem region5_out (V : (c : Dev nD) → (b : Ref sig .tc) → Buf (Elt Ideal) ((c : Thread nD τ).loc b)) (c : Dev nD) :
    ((Gen.dat5 (F := Ideal) V c).arrAt 3 cfg5.N : S100000x40.Idx → EReal)
      = addRow (mm (m := 100000) (k := 200) (n := 40) (V c (Pipeline.arrRef spec5 0)) (V c (Pipeline.arrRef spec5 1)))
          (V c (Pipeline.arrRef spec5 2)) :=
  (Gen.dat5 (F := Ideal) V c).arrAt_eq_of_cover 3
    (addRow (mm (m := 100000) (k := 200) (n := 40) (V c (Pipeline.arrRef spec5 0)) (V c (Pipeline.arrRef spec5 1)))
          (V c (Pipeline.arrRef spec5 2)))
    (fun t _ => dense5_flushed V c t) dense5_cover

end Cert.KernelIdeal.Hand

end
-- ==== Proof.LibHostStages.lean ====
/-
  Two facts about a straight line of host operations, for any topology, buffer signature and element values.

  Running two lists of operations one after the other is running their concatenation (`after_append`): a long program can
  be read back stage by stage, each stage from ANY contents before it.

  An outlined function's intermediate values live in buffers typed through the call's record; a value is stored into
  such a buffer and read back through a change of type along the buffer's type equation, there and back. The round trip
  is the identity (`ofBuf_toBuf`): rewriting with it removes those changes of type in pairs, however deeply the function's
  operations nest them, before two spellings of the function's result are compared.
-/
import Idealize.ShloMosaic.Lib.StableHlo.Run

noncomputable section

namespace Cert.Lib.HostStages

open Idealize.ShloMosaic Idealize.ShloMosaic.StableHlo

variable {τ : Topo} {sig : RefSig} {Val : EltTy → Type}

/-- Running two lists of operations one after the other is running their concatenation. -/
theorem after_append (l₁ l₂ : List (HloOp τ sig Val)) :
    ∀ V : Valuation τ sig Val, after (l₁ ++ l₂) V = after l₂ (after l₁ V) := by
  induction l₁ with
  | nil => intro V; rfl
  | cons op l ih => intro V; exact ih (op.result V)

/-- A value stored in a typed buffer and read back is the value. -/
theorem ofBuf_toBuf {T : BufTy} (x : TRef sig T) (v : T.Contents Val) : x.ofBuf (x.toBuf v) = v := by
  obtain ⟨r, h, _, _⟩ := x
  subst h
  rfl

end Cert.Lib.HostStages

end
-- ==== Proof.RefLine.lean ====
/-
  The reference program as one straight line of 93 host operations, the three calls of the outlined exponential
  linear unit (and, inside each, its two outlined selections) listed at their call sites over the call's buffers.

  The line is cut into seven consecutive stretches — a layer's affine part, then its activation, four times over, the
  last layer without one — so that the contents after the whole line are the contents after each stretch in turn
  (the concatenation law of the fold). Every weakly fair execution of the program terminates with every buffer at the
  fold of the line over the launch contents.
-/
import proofs.«123122_j81329500717148_1_alg».proof.Proof.Gen.ReferenceIdeal
import Idealize.ShloMosaic.Lib.StableHlo.Run
import proofs.«123122_j81329500717148_1_alg».proof.Proof.LibHostStages

noncomputable section

namespace Cert.ReferenceIdeal.Hand

open Cert.ReferenceIdeal Cert.ReferenceIdeal.Gen Idealize.ShloMosaic Idealize.ShloMosaic.TcCoe Idealize.SL.Sem Idealize.ShloMosaic.StableHlo

open Cert.Lib.HostStages

variable {F : FTy → Type} [FloatOps F]

/-- The first graph layer before its activation: x · W1, the edge sum of it, the bias added. -/
abbrev opsS1 : List (HloOp τ sig (Elt F)) :=
  [ StableHlo.binary main_arg0 main_arg1 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg11 main_v1 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v2 (broadcastInDim S1600000 ![] bcast_S_S1600000 : (⟨S_, .i32⟩ : BufTy).Contents (Elt F) → (⟨S1600000, .i32⟩ : BufTy).Contents (Elt F)),
    StableHlo.binary main_arg10 main_v2 main_v3 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v4 (broadcastInDim S1600000 ![] bcast_S_S1600000 : (⟨S_, .i32⟩ : BufTy).Contents (Elt F) → (⟨S1600000, .i32⟩ : BufTy).Contents (Elt F)),
    StableHlo.binary main_arg10 main_v4 main_v5 (addi : (⟨S1600000, .i32⟩ : BufTy).Contents (Elt F) → (⟨S1600000, .i32⟩ : BufTy).Contents (Elt F) → (⟨S1600000, .i32⟩ : BufTy).Contents (Elt F)),
    StableHlo.ternary main_v3 main_v5 main_arg10 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v6 main_v7 (broadcastInDim S1600000x1 ![0] bcast_S1600000_S1600000x1_0 : (⟨S1600000, .i32⟩ : BufTy).Contents (Elt F) → (⟨S1600000x1, .i32⟩ : BufTy).Contents (Elt F)),
    StableHlo.binary main_v0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v1 main_v9 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v9 main_v8 main_v10 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_arg9 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg2 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S100000x128 ![0, 1] bcast_S1x128_S100000x128_0_1 : (⟨S1x128, .f32⟩ : BufTy).Contents (Elt F) → (⟨S100000x128, .f32⟩ : BufTy).Contents (Elt F)),
    StableHlo.binary main_v13 main_v15 main_v16 (addf : (⟨S100000x128, .f32⟩ : BufTy).Contents (Elt F) → (⟨S100000x128, .f32⟩ : BufTy).Contents (Elt F) → (⟨S100000x128, .f32⟩ : BufTy).Contents (Elt F)) ]

/-- The first activation: the outlined exponential linear unit's fifteen operations over its first call's buffers. -/
abbrev opsE1 : List (HloOp τ sig (Elt F)) :=
  [ StableHlo.TRef.nullary main_call0.cst (constant S_ .f32 0x00000000#32),
    StableHlo.TRef.unary main_call0.cst main_call0.v0 (broadcastInDim S100000x128 ![] bcast_S_S100000x128),
    StableHlo.TRef.binary (.of main_v16 : TRef sig ⟨S100000x128, .f32⟩) main_call0.v0 main_call0.v1 (cmpf .ogt),
    StableHlo.TRef.nullary main_call0.cst_0 (constant S_ .f32 0x00000000#32),
    StableHlo.TRef.unary main_call0.cst_0 main_call0.v2 (broadcastInDim S100000x128 ![] bcast_S_S100000x128),
    StableHlo.TRef.binary (.of main_v16 : TRef sig ⟨S100000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x128 ![] bcast_S_S100000x128),
    StableHlo.TRef.ternary main_call0.v3 main_call0.call0.v1 (.of main_v16 : TRef sig ⟨S100000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x128 ![] bcast_S_S100000x128),
    StableHlo.TRef.binary main_call0.v6 main_call0.v5 main_call0.v7 mulf,
    StableHlo.TRef.ternary main_call0.v1 (.of main_v16 : TRef sig ⟨S100000x128, .f32⟩) main_call0.v7 main_call0.call1.v0 select ]

/-- The second graph layer before its activation. -/
abbrev opsS2 : List (HloOp τ sig (Elt F)) :=
  [ StableHlo.binary main_v17 main_arg3 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v19 (broadcastInDim S1600000x1 ![0] bcast_S1600000_S1600000x1_0 : (⟨S1600000, .f32⟩ : BufTy).Contents (Elt F) → (⟨S1600000x1, .f32⟩ : BufTy).Contents (Elt F)),
    StableHlo.nullary main_c_1 (constantI S_ 32 0#32),
    StableHlo.unary main_c_1 main_v20 (broadcastInDim S1600000 ![] bcast_S_S1600000 : (⟨S_, .i32⟩ : BufTy).Contents (Elt F) → (⟨S1600000, .i32⟩ : BufTy).Contents (Elt F)),
    StableHlo.binary main_arg10 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v22 (broadcastInDim S1600000 ![] bcast_S_S1600000 : (⟨S_, .i32⟩ : BufTy).Contents (Elt F) → (⟨S1600000, .i32⟩ : BufTy).Contents (Elt F)),
    StableHlo.binary main_arg10 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_arg10 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v18 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v19 main_v27 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v27 main_v26 main_v28 (mulf : (⟨S1600000x128, .f32⟩ : BufTy).Contents (Elt F) → (⟨S1600000x128, .f32⟩ : BufTy).Contents (Elt F) → (⟨S1600000x128, .f32⟩ : BufTy).Contents (Elt F)),
    StableHlo.nullary main_cst_3 (constant S_ .f32 0x00000000#32),
    StableHlo.unary main_cst_3 main_v29 (broadcastInDim S100000x128 ![] bcast_S_S100000x128 : (⟨S_, .f32⟩ : BufTy).Contents (Elt F) → (⟨S100000x128, .f32⟩ : BufTy).Contents (Elt F)),
    StableHlo.unary main_arg9 main_v30 (broadcastInDim S1600000x1 ![0] bcast_S1600000_S1600000x1_0 : (⟨S1600000, .i32⟩ : BufTy).Contents (Elt F) → (⟨S1600000x1, .i32⟩ : BufTy).Contents (Elt F)),
    StableHlo.ternary main_v29 main_v30 main_v28 main_v31 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)) ]

/-- The second activation, over the second call's buffers. -/
abbrev opsE2 : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v34 : TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v34 : TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v34 : TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v34 : TRef sig ⟨S100000x128, .f32⟩) main_call1.v7 main_call1.call1.v0 select ]

/-- The head's first dense layer before its activation. -/
abbrev opsS3 : List (HloOp τ sig (Elt F)) :=
  [ StableHlo.binary main_v35 main_arg5 main_v36 ((fun l r => Host.dotGeneral dot_S100000x128_S128x200_S100000x200_1_0_0_1_n_n none l r) : (⟨S100000x128, .f32⟩ : BufTy).Contents (Elt F) → (⟨S128x200, .f32⟩ : BufTy).Contents (Elt F) → (⟨S100000x200, .f32⟩ : BufTy).Contents (Elt F)),
    StableHlo.unary main_arg6 main_v37 (broadcastInDim S1x200 ![1] bcast_S200_S1x200_1 : (⟨S200, .f32⟩ : BufTy).Contents (Elt F) → (⟨S1x200, .f32⟩ : BufTy).Contents (Elt F)),
    StableHlo.unary main_v37 main_v38 (broadcastInDim S100000x200 ![0, 1] bcast_S1x200_S100000x200_0_1 : (⟨S1x200, .f32⟩ : BufTy).Contents (Elt F) → (⟨S100000x200, .f32⟩ : BufTy).Contents (Elt F)),
    StableHlo.binary main_v36 main_v38 main_v39 (addf : (⟨S100000x200, .f32⟩ : BufTy).Contents (Elt F) → (⟨S100000x200, .f32⟩ : BufTy).Contents (Elt F) → (⟨S100000x200, .f32⟩ : BufTy).Contents (Elt F)) ]

/-- The head's activation (the outlined function at width 200), over the third call's buffers. -/
abbrev opsE3 : List (HloOp τ sig (Elt F)) :=
  [ StableHlo.TRef.nullary main_call2.cst (constant S_ .f32 0x00000000#32),
    StableHlo.TRef.unary main_call2.cst main_call2.v0 (broadcastInDim S100000x200 ![] bcast_S_S100000x200),
    StableHlo.TRef.binary (.of main_v39 : TRef sig ⟨S100000x200, .f32⟩) main_call2.v0 main_call2.v1 (cmpf .ogt),
    StableHlo.TRef.nullary main_call2.cst_0 (constant S_ .f32 0x00000000#32),
    StableHlo.TRef.unary main_call2.cst_0 main_call2.v2 (broadcastInDim S100000x200 ![] bcast_S_S100000x200),
    StableHlo.TRef.binary (.of main_v39 : TRef sig ⟨S100000x200, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x200 ![] bcast_S_S100000x200),
    StableHlo.TRef.ternary main_call2.v3 main_call2.call0.v1 (.of main_v39 : TRef sig ⟨S100000x200, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x200 ![] bcast_S_S100000x200),
    StableHlo.TRef.binary main_call2.v6 main_call2.v5 main_call2.v7 mulf,
    StableHlo.TRef.ternary main_call2.v1 (.of main_v39 : TRef sig ⟨S100000x200, .f32⟩) main_call2.v7 main_call2.call1.v0 select ]

/-- The head's second dense layer: the result. -/
abbrev opsS4 : List (HloOp τ sig (Elt F)) :=
  [ StableHlo.binary main_v40 main_arg7 main_v41 ((fun l r => Host.dotGeneral dot_S100000x200_S200x40_S100000x40_1_0_0_1_n_n none l r) : (⟨S100000x200, .f32⟩ : BufTy).Contents (Elt F) → (⟨S200x40, .f32⟩ : BufTy).Contents (Elt F) → (⟨S100000x40, .f32⟩ : BufTy).Contents (Elt F)),
    StableHlo.unary main_arg8 main_v42 (broadcastInDim S1x40 ![1] bcast_S40_S1x40_1 : (⟨S40, .f32⟩ : BufTy).Contents (Elt F) → (⟨S1x40, .f32⟩ : BufTy).Contents (Elt F)),
    StableHlo.unary main_v42 main_v43 (broadcastInDim S100000x40 ![0, 1] bcast_S1x40_S100000x40_0_1 : (⟨S1x40, .f32⟩ : BufTy).Contents (Elt F) → (⟨S100000x40, .f32⟩ : BufTy).Contents (Elt F)),
    StableHlo.binary main_v41 main_v43 main_v44 (addf : (⟨S100000x40, .f32⟩ : BufTy).Contents (Elt F) → (⟨S100000x40, .f32⟩ : BufTy).Contents (Elt F) → (⟨S100000x40, .f32⟩ : BufTy).Contents (Elt F)) ]

/-- The whole line: @main's 93 operations in order, the calls unfolded. -/
abbrev ops : List (HloOp τ sig (Elt F)) :=
  [ StableHlo.binary main_arg0 main_arg1 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg11 main_v1 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v2 (broadcastInDim S1600000 ![] bcast_S_S1600000 : (⟨S_, .i32⟩ : BufTy).Contents (Elt F) → (⟨S1600000, .i32⟩ : BufTy).Contents (Elt F)),
    StableHlo.binary main_arg10 main_v2 main_v3 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v4 (broadcastInDim S1600000 ![] bcast_S_S1600000 : (⟨S_, .i32⟩ : BufTy).Contents (Elt F) → (⟨S1600000, .i32⟩ : BufTy).Contents (Elt F)),
    StableHlo.binary main_arg10 main_v4 main_v5 (addi : (⟨S1600000, .i32⟩ : BufTy).Contents (Elt F) → (⟨S1600000, .i32⟩ : BufTy).Contents (Elt F) → (⟨S1600000, .i32⟩ : BufTy).Contents (Elt F)),
    StableHlo.ternary main_v3 main_v5 main_arg10 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v6 main_v7 (broadcastInDim S1600000x1 ![0] bcast_S1600000_S1600000x1_0 : (⟨S1600000, .i32⟩ : BufTy).Contents (Elt F) → (⟨S1600000x1, .i32⟩ : BufTy).Contents (Elt F)),
    StableHlo.binary main_v0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v1 main_v9 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v9 main_v8 main_v10 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_arg9 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg2 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S100000x128 ![0, 1] bcast_S1x128_S100000x128_0_1 : (⟨S1x128, .f32⟩ : BufTy).Contents (Elt F) → (⟨S100000x128, .f32⟩ : BufTy).Contents (Elt F)),
    StableHlo.binary main_v13 main_v15 main_v16 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v16 : TRef sig ⟨S100000x128, .f32⟩) main_call0.v0 main_call0.v1 (cmpf .ogt),
    StableHlo.TRef.nullary main_call0.cst_0 (constant S_ .f32 0x00000000#32),
    StableHlo.TRef.unary main_call0.cst_0 main_call0.v2 (broadcastInDim S100000x128 ![] bcast_S_S100000x128),
    StableHlo.TRef.binary (.of main_v16 : TRef sig ⟨S100000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x128 ![] bcast_S_S100000x128),
    StableHlo.TRef.ternary main_call0.v3 main_call0.call0.v1 (.of main_v16 : TRef sig ⟨S100000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x128 ![] bcast_S_S100000x128),
    StableHlo.TRef.binary main_call0.v6 main_call0.v5 main_call0.v7 mulf,
    StableHlo.TRef.ternary main_call0.v1 (.of main_v16 : TRef sig ⟨S100000x128, .f32⟩) main_call0.v7 main_call0.call1.v0 select,
    StableHlo.binary main_v17 main_arg3 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v19 (broadcastInDim S1600000x1 ![0] bcast_S1600000_S1600000x1_0 : (⟨S1600000, .f32⟩ : BufTy).Contents (Elt F) → (⟨S1600000x1, .f32⟩ : BufTy).Contents (Elt F)),
    StableHlo.nullary main_c_1 (constantI S_ 32 0#32),
    StableHlo.unary main_c_1 main_v20 (broadcastInDim S1600000 ![] bcast_S_S1600000 : (⟨S_, .i32⟩ : BufTy).Contents (Elt F) → (⟨S1600000, .i32⟩ : BufTy).Contents (Elt F)),
    StableHlo.binary main_arg10 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v22 (broadcastInDim S1600000 ![] bcast_S_S1600000 : (⟨S_, .i32⟩ : BufTy).Contents (Elt F) → (⟨S1600000, .i32⟩ : BufTy).Contents (Elt F)),
    StableHlo.binary main_arg10 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_arg10 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v18 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v19 main_v27 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v27 main_v26 main_v28 (mulf : (⟨S1600000x128, .f32⟩ : BufTy).Contents (Elt F) → (⟨S1600000x128, .f32⟩ : BufTy).Contents (Elt F) → (⟨S1600000x128, .f32⟩ : BufTy).Contents (Elt F)),
    StableHlo.nullary main_cst_3 (constant S_ .f32 0x00000000#32),
    StableHlo.unary main_cst_3 main_v29 (broadcastInDim S100000x128 ![] bcast_S_S100000x128 : (⟨S_, .f32⟩ : BufTy).Contents (Elt F) → (⟨S100000x128, .f32⟩ : BufTy).Contents (Elt F)),
    StableHlo.unary main_arg9 main_v30 (broadcastInDim S1600000x1 ![0] bcast_S1600000_S1600000x1_0 : (⟨S1600000, .i32⟩ : BufTy).Contents (Elt F) → (⟨S1600000x1, .i32⟩ : BufTy).Contents (Elt F)),
    StableHlo.ternary main_v29 main_v30 main_v28 main_v31 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v34 : TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v34 : TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v34 : TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v34 : TRef sig ⟨S100000x128, .f32⟩) main_call1.v7 main_call1.call1.v0 select,
    StableHlo.binary main_v35 main_arg5 main_v36 ((fun l r => Host.dotGeneral dot_S100000x128_S128x200_S100000x200_1_0_0_1_n_n none l r) : (⟨S100000x128, .f32⟩ : BufTy).Contents (Elt F) → (⟨S128x200, .f32⟩ : BufTy).Contents (Elt F) → (⟨S100000x200, .f32⟩ : BufTy).Contents (Elt F)),
    StableHlo.unary main_arg6 main_v37 (broadcastInDim S1x200 ![1] bcast_S200_S1x200_1 : (⟨S200, .f32⟩ : BufTy).Contents (Elt F) → (⟨S1x200, .f32⟩ : BufTy).Contents (Elt F)),
    StableHlo.unary main_v37 main_v38 (broadcastInDim S100000x200 ![0, 1] bcast_S1x200_S100000x200_0_1 : (⟨S1x200, .f32⟩ : BufTy).Contents (Elt F) → (⟨S100000x200, .f32⟩ : BufTy).Contents (Elt F)),
    StableHlo.binary main_v36 main_v38 main_v39 (addf : (⟨S100000x200, .f32⟩ : BufTy).Contents (Elt F) → (⟨S100000x200, .f32⟩ : BufTy).Contents (Elt F) → (⟨S100000x200, .f32⟩ : BufTy).Contents (Elt F)),
    StableHlo.TRef.nullary main_call2.cst (constant S_ .f32 0x00000000#32),
    StableHlo.TRef.unary main_call2.cst main_call2.v0 (broadcastInDim S100000x200 ![] bcast_S_S100000x200),
    StableHlo.TRef.binary (.of main_v39 : TRef sig ⟨S100000x200, .f32⟩) main_call2.v0 main_call2.v1 (cmpf .ogt),
    StableHlo.TRef.nullary main_call2.cst_0 (constant S_ .f32 0x00000000#32),
    StableHlo.TRef.unary main_call2.cst_0 main_call2.v2 (broadcastInDim S100000x200 ![] bcast_S_S100000x200),
    StableHlo.TRef.binary (.of main_v39 : TRef sig ⟨S100000x200, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x200 ![] bcast_S_S100000x200),
    StableHlo.TRef.ternary main_call2.v3 main_call2.call0.v1 (.of main_v39 : TRef sig ⟨S100000x200, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x200 ![] bcast_S_S100000x200),
    StableHlo.TRef.binary main_call2.v6 main_call2.v5 main_call2.v7 mulf,
    StableHlo.TRef.ternary main_call2.v1 (.of main_v39 : TRef sig ⟨S100000x200, .f32⟩) main_call2.v7 main_call2.call1.v0 select,
    StableHlo.binary main_v40 main_arg7 main_v41 ((fun l r => Host.dotGeneral dot_S100000x200_S200x40_S100000x40_1_0_0_1_n_n none l r) : (⟨S100000x200, .f32⟩ : BufTy).Contents (Elt F) → (⟨S200x40, .f32⟩ : BufTy).Contents (Elt F) → (⟨S100000x40, .f32⟩ : BufTy).Contents (Elt F)),
    StableHlo.unary main_arg8 main_v42 (broadcastInDim S1x40 ![1] bcast_S40_S1x40_1 : (⟨S40, .f32⟩ : BufTy).Contents (Elt F) → (⟨S1x40, .f32⟩ : BufTy).Contents (Elt F)),
    StableHlo.unary main_v42 main_v43 (broadcastInDim S100000x40 ![0, 1] bcast_S1x40_S100000x40_0_1 : (⟨S1x40, .f32⟩ : BufTy).Contents (Elt F) → (⟨S100000x40, .f32⟩ : BufTy).Contents (Elt F)),
    StableHlo.binary main_v41 main_v43 main_v44 (addf : (⟨S100000x40, .f32⟩ : BufTy).Contents (Elt F) → (⟨S100000x40, .f32⟩ : BufTy).Contents (Elt F) → (⟨S100000x40, .f32⟩ : BufTy).Contents (Elt F)) ]

/-- The line is its seven stretches one after the other. -/
theorem ops_split : (ops : List (HloOp τ sig (Elt F))) = opsS1 ++ (opsE1 ++ (opsS2 ++ (opsE2 ++ (opsS3 ++ (opsE3 ++ opsS4))))) := rfl

/-- The contents after the line are the contents after each stretch in turn. -/
theorem after_ops (V : Valuation τ sig (Elt F)) :
    after ops V = after opsS4 (after opsE3 (after opsS3 (after opsE2 (after opsS2 (after opsE1 (after opsS1 V)))))) := by
  rw [ops_split, after_append, after_append, after_append, after_append, after_append, after_append]

-- ninety-three binds, each call's definition unfolded in place: the comparison recurses once per statement
set_option maxRecDepth 8192 in
/-- @main is that straight line: with the outlined functions' definitions unfolded at their calls and the records
    at their fields, sequencing computes both sides to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩

/-- From any memory with zero counters: every weakly fair execution of @main terminates, and every final state has
    each buffer at the line's fold over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.HostValue.lean ====
/-
  The reference's host spellings as the network's vocabulary, each over variables of the program's own array types.

  A layer's affine part on the host is a general product, possibly the edge sum of it, and a bias vector broadcast
  first to one row and then down the rows, added entry by entry: that is  addBias (mm a w) b,  or
  addBias (hostEdges rows cols vals y) b  with the edge sum carried whole (its operands are the same host terms on both
  sides, so the two sides agree without opening a gather or a scatter).

  The outlined exponential linear unit on the host compares with a zero broadcast over the shape, picks x itself where
  0 < x and elsewhere  1 * expm1 (x > 0 ? 0 : x): entry by entry it is the scalar identity  hostElu1.
-/
import proofs.«123122_j81329500717148_1_alg».proof.Proof.Gen.ReferenceIdeal
import proofs.«123122_j81329500717148_1_alg».proof.Proof.Spec

noncomputable section

namespace Cert.ReferenceIdeal.Hand

open Cert.ReferenceIdeal Cert.ReferenceIdeal.Gen Idealize.ShloMosaic Idealize.ShloMosaic.ValueIdx
open Cert.Layers Cert.Gcn

/-- The edge sum with the reference's own dimension records. -/
abbrev hostEdges (rows cols : IVec S1600000 32) (vals : FVec Ideal S1600000 .f32) (y : FVec Ideal S100000x128 .f32) : FVec Ideal S100000x128 .f32 :=
  edgeSum (e := 1600000) (n := 100000) (d := 128) gather_S100000x128_S1600000x1_S1600000x128_1_0_n_n_0_1_1128
    scatter_S100000x128_S1600000x1_S1600000x128_1_0_0_1 bcast_S1600000_S1600000x1_0 bcast_S_S1600000
    bcast_S1600000x1_S1600000x128_0_1 bcast_S_S100000x128 100000#32 rows cols vals y

/-- The outlined exponential linear unit's host term over any shape is elu, entry by entry. -/
theorem hostElu_eq {s : Shape} (h : (⟨0, ![]⟩ : Shape).BroadcastsInDim s ![]) (y : FVec Ideal s .f32) :
    select (cmpf .ogt y (broadcastInDim s ![] h (constant (F := Ideal) ⟨0, ![]⟩ .f32 0x00000000#32))) y
      (mulf (broadcastInDim s ![] h (constant (F := Ideal) ⟨0, ![]⟩ .f32 0x3F800000#32))
        (Host.expm1 (select (cmpf .ogt y (broadcastInDim s ![] h (constant (F := Ideal) ⟨0, ![]⟩ .f32 0x00000000#32)))
          (broadcastInDim s ![] h (constant (F := Ideal) ⟨0, ![]⟩ .f32 0x00000000#32)) y))) = elu y := by
  funext i
  have hb : ∀ w : BitVec 32, broadcastInDim s ![] h (constant (F := Ideal) ⟨0, ![]⟩ .f32 w) i = Ideal.ofBits .f32 w :=
    fun w => broadcastInDim_apply _ h _ i ix0 fun ax => ax.elim0
  show Scalar.select (Ideal.cmp .ogt (y i) (broadcastInDim s ![] h (constant (F := Ideal) ⟨0, ![]⟩ .f32 0x00000000#32) i)) (y i)
      (broadcastInDim s ![] h (constant (F := Ideal) ⟨0, ![]⟩ .f32 0x3F800000#32) i *
        (Ideal.exp (Scalar.select (Ideal.cmp .ogt (y i) (broadcastInDim s ![] h (constant (F := Ideal) ⟨0, ![]⟩ .f32 0x00000000#32) i))
          (broadcastInDim s ![] h (constant (F := Ideal) ⟨0, ![]⟩ .f32 0x00000000#32) i) (y i)) - 1)) = elu1 (y i)
  rw [hb, hb]
  exact hostElu1 (y i)

/-- A graph layer's affine part after its product: the edge sum, then the bias broadcast in two steps and added. -/
theorem edgeBias_eq (rows cols : IVec S1600000 32) (vals : FVec Ideal S1600000 .f32) (y : FVec Ideal S100000x128 .f32)
    (b : FVec Ideal S128 .f32) :
    addf (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 rows)
        (mulf (broadcastInDim S1600000x128 ![0, 1] bcast_S1600000x1_S1600000x128_0_1 (broadcastInDim S1600000x1 ![0] bcast_S1600000_S1600000x1_0 vals))
          (Host.gather gather_S100000x128_S1600000x1_S1600000x128_1_0_n_n_0_1_1128 y
            (broadcastInDim S1600000x1 ![0] bcast_S1600000_S1600000x1_0
              (select (cmpi .slt cols (broadcastInDim S1600000 ![] bcast_S_S1600000 (constantI S_ 32 0#32)))
                (addi cols (broadcastInDim S1600000 ![] bcast_S_S1600000 (constantI S_ 32 100000#32))) cols)))))
      (broadcastInDim S100000x128 ![0, 1] bcast_S1x128_S100000x128_0_1 (broadcastInDim S1x128 ![1] bcast_S128_S1x128_1 b))
    = addBias (hostEdges rows cols vals y) b := by
  rw [hostBias_eq (m := 100000) (n := 128) b bcast_S128_S1x128_1 bcast_S1x128_S100000x128_0_1]
  rfl

/-- A general product on the host with a bias broadcast in two steps and added. -/
theorem denseBias_eq {m k n : Nat} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = Cert.LibMatmulPlain.plainDims m k n wf)
    (a : FVec Ideal ⟨2, ![m, k]⟩ .f32) (w : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    addf (Host.dotGeneral d none a w) (broadcastInDim ⟨2, ![m, n]⟩ ![0, 1] h2 (broadcastInDim ⟨2, ![1, n]⟩ ![1] h1 b))
      = addBias (mm a w) b := by
  rw [hostMm_eq d wf hd a w, hostBias_eq b h1 h2]
  rfl

end Cert.ReferenceIdeal.Hand

end
-- ==== Proof.StageAffine.lean ====
/-
  The four affine stretches of the reference's line read back, each from ANY contents before it: a graph layer's
  stretch leaves  addBias (edge sum of (a · W)) b  in its last buffer, a dense layer's  addBias (a · W) b,  of the
  contents of the buffers it reads; and a buffer a stretch does not write keeps its contents through it.
-/
import proofs.«123122_j81329500717148_1_alg».proof.Proof.RefLine
import proofs.«123122_j81329500717148_1_alg».proof.Proof.HostValue

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Layers Cert.Gcn Cert.Lib.HostStages

/-- The buffers the stretch writes. -/
abbrev opsS1_W : List (Ref sig .tc) := [main_v0, main_v1, main_c, main_v2, main_v3, main_c_0, main_v4, main_v5, main_v6, main_v7, main_v8, main_v9, main_v10, main_cst, main_v11, main_v12, main_v13, main_v14, main_v15, main_v16]

theorem opsS1_writes : (opsS1 : List (HloOp τ sig (Elt Ideal))).Forall fun op =>
    op.writes ⊆ (opsS1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the stretch does not write keeps its contents through it. -/
theorem S1_keep (V : Valuation τ sig (Elt Ideal)) (r : Ref sig .tc) (h : r ∉ opsS1_W) :
    after opsS1 V (Proc.devRef .tc r) = V (Proc.devRef .tc r) :=
  after_of_writes_sub opsS1 V opsS1_writes h

/-- The buffers the stretch writes. -/
abbrev opsS2_W : List (Ref sig .tc) := [main_v18, main_v19, main_c_1, main_v20, main_v21, main_c_2, main_v22, main_v23, main_v24, main_v25, main_v26, main_v27, main_v28, main_cst_3, main_v29, main_v30, main_v31, main_v32, main_v33, main_v34]

theorem opsS2_writes : (opsS2 : List (HloOp τ sig (Elt Ideal))).Forall fun op =>
    op.writes ⊆ (opsS2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the stretch does not write keeps its contents through it. -/
theorem S2_keep (V : Valuation τ sig (Elt Ideal)) (r : Ref sig .tc) (h : r ∉ opsS2_W) :
    after opsS2 V (Proc.devRef .tc r) = V (Proc.devRef .tc r) :=
  after_of_writes_sub opsS2 V opsS2_writes h

/-- The buffers the stretch writes. -/
abbrev opsS3_W : List (Ref sig .tc) := [main_v36, main_v37, main_v38, main_v39]

theorem opsS3_writes : (opsS3 : List (HloOp τ sig (Elt Ideal))).Forall fun op =>
    op.writes ⊆ (opsS3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the stretch does not write keeps its contents through it. -/
theorem S3_keep (V : Valuation τ sig (Elt Ideal)) (r : Ref sig .tc) (h : r ∉ opsS3_W) :
    after opsS3 V (Proc.devRef .tc r) = V (Proc.devRef .tc r) :=
  after_of_writes_sub opsS3 V opsS3_writes h

/-- The buffers the stretch writes. -/
abbrev opsS4_W : List (Ref sig .tc) := [main_v41, main_v42, main_v43, main_v44]

theorem opsS4_writes : (opsS4 : List (HloOp τ sig (Elt Ideal))).Forall fun op =>
    op.writes ⊆ (opsS4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the stretch does not write keeps its contents through it. -/
theorem S4_keep (V : Valuation τ sig (Elt Ideal)) (r : Ref sig .tc) (h : r ∉ opsS4_W) :
    after opsS4 V (Proc.devRef .tc r) = V (Proc.devRef .tc r) :=
  after_of_writes_sub opsS4 V opsS4_writes h

/-- The stretch's result: the bias added to the edge sum of the product. -/
theorem S1_out (V : Valuation τ sig (Elt Ideal)) :
    after opsS1 V (Proc.devRef .tc main_v16)
      = addBias (hostEdges (V (main_arg9 : DevRef τ sig)) (V (main_arg10 : DevRef τ sig)) (V (main_arg11 : DevRef τ sig))
          (mm (V (main_arg0 : DevRef τ sig)) (V (main_arg1 : DevRef τ sig)))) (V (main_arg2 : DevRef τ sig)) := by
  after_results_simp
  rw [hostMm_eq dot_S100000x256_S256x128_S100000x128_1_0_0_1_n_n dot_S100000x256_S256x128_S100000x128_1_0_0_1_n_n_wf rfl]
  exact edgeBias_eq _ _ _ _ _

/-- The stretch's result: the bias added to the edge sum of the product. -/
theorem S2_out (V : Valuation τ sig (Elt Ideal)) :
    after opsS2 V (Proc.devRef .tc main_v34)
      = addBias (hostEdges (V (main_arg9 : DevRef τ sig)) (V (main_arg10 : DevRef τ sig)) (V (main_arg11 : DevRef τ sig))
          (mm (V (main_v17 : DevRef τ sig)) (V (main_arg3 : DevRef τ sig)))) (V (main_arg4 : DevRef τ sig)) := by
  after_results_simp
  rw [hostMm_eq dot_S100000x128_S128x128_S100000x128_1_0_0_1_n_n dot_S100000x128_S128x128_S100000x128_1_0_0_1_n_n_wf rfl]
  exact edgeBias_eq _ _ _ _ _

/-- The stretch's result: the bias added to the product. -/
theorem S3_out (V : Valuation τ sig (Elt Ideal)) :
    after opsS3 V (Proc.devRef .tc main_v39) = addBias (mm (V (main_v35 : DevRef τ sig)) (V (main_arg5 : DevRef τ sig))) (V (main_arg6 : DevRef τ sig)) := by
  after_results_simp
  exact denseBias_eq dot_S100000x128_S128x200_S100000x200_1_0_0_1_n_n dot_S100000x128_S128x200_S100000x200_1_0_0_1_n_n_wf rfl _ _ _ _ _

/-- The stretch's result: the bias added to the product. -/
theorem S4_out (V : Valuation τ sig (Elt Ideal)) :
    after opsS4 V (Proc.devRef .tc main_v44) = addBias (mm (V (main_v40 : DevRef τ sig)) (V (main_arg7 : DevRef τ sig))) (V (main_arg8 : DevRef τ sig)) := by
  after_results_simp
  exact denseBias_eq dot_S100000x200_S200x40_S100000x40_1_0_0_1_n_n dot_S100000x200_S200x40_S100000x40_1_0_0_1_n_n_wf rfl _ _ _ _ _

end Cert.ReferenceIdeal.Hand

end
-- ==== Proof.StageElu.lean ====
/-
  The three activation stretches of the reference's line read back, each from ANY contents before it: the outlined
  exponential linear unit's fifteen operations leave  elu  of the contents of the buffer they read in the call's result
  buffer (the values stored and read back through the call's typed buffers are the values: the round trip is the
  identity); and a buffer a stretch does not write keeps its contents through it.
-/
import proofs.«123122_j81329500717148_1_alg».proof.Proof.RefLine
import proofs.«123122_j81329500717148_1_alg».proof.Proof.HostValue

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Layers Cert.Gcn Cert.Lib.HostStages

/-- The buffers the stretch writes. -/
abbrev opsE1_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v17]

theorem opsE1_writes : (opsE1 : List (HloOp τ sig (Elt Ideal))).Forall fun op =>
    op.writes ⊆ (opsE1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the stretch does not write keeps its contents through it. -/
theorem E1_keep (V : Valuation τ sig (Elt Ideal)) (r : Ref sig .tc) (h : r ∉ opsE1_W) :
    after opsE1 V (Proc.devRef .tc r) = V (Proc.devRef .tc r) :=
  after_of_writes_sub opsE1 V opsE1_writes h

/-- The buffers the stretch writes. -/
abbrev opsE2_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v35]

theorem opsE2_writes : (opsE2 : List (HloOp τ sig (Elt Ideal))).Forall fun op =>
    op.writes ⊆ (opsE2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the stretch does not write keeps its contents through it. -/
theorem E2_keep (V : Valuation τ sig (Elt Ideal)) (r : Ref sig .tc) (h : r ∉ opsE2_W) :
    after opsE2 V (Proc.devRef .tc r) = V (Proc.devRef .tc r) :=
  after_of_writes_sub opsE2 V opsE2_writes h

/-- The buffers the stretch writes. -/
abbrev opsE3_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v40]

theorem opsE3_writes : (opsE3 : List (HloOp τ sig (Elt Ideal))).Forall fun op =>
    op.writes ⊆ (opsE3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the stretch does not write keeps its contents through it. -/
theorem E3_keep (V : Valuation τ sig (Elt Ideal)) (r : Ref sig .tc) (h : r ∉ opsE3_W) :
    after opsE3 V (Proc.devRef .tc r) = V (Proc.devRef .tc r) :=
  after_of_writes_sub opsE3 V opsE3_writes h

/-- The stretch's result: elu of its operand, entry by entry. -/
theorem E1_out (V : Valuation τ sig (Elt Ideal)) :
    after opsE1 V (Proc.devRef .tc main_v17) = elu (V (main_v16 : DevRef τ sig)) := by
  after_results_simp
  simp only [ofBuf_toBuf]
  exact hostElu_eq _ _

/-- The stretch's result: elu of its operand, entry by entry. -/
theorem E2_out (V : Valuation τ sig (Elt Ideal)) :
    after opsE2 V (Proc.devRef .tc main_v35) = elu (V (main_v34 : DevRef τ sig)) := by
  after_results_simp
  simp only [ofBuf_toBuf]
  exact hostElu_eq _ _

/-- The stretch's result: elu of its operand, entry by entry. -/
theorem E3_out (V : Valuation τ sig (Elt Ideal)) :
    after opsE3 V (Proc.devRef .tc main_v40) = elu (V (main_v39 : DevRef τ sig)) := by
  after_results_simp
  simp only [ofBuf_toBuf]
  exact hostElu_eq _ _

end Cert.ReferenceIdeal.Hand

end
-- ==== Proof.RefRun.lean ====
import proofs.«123122_j81329500717148_1_alg».proof.Proof.Gen.ReferenceIdeal
import Idealize.ShloMosaic.Lib.StableHlo.Run
import proofs.«123122_j81329500717148_1_alg».proof.Proof.Spec
import proofs.«123122_j81329500717148_1_alg».proof.Proof.StageAffine
import proofs.«123122_j81329500717148_1_alg».proof.Proof.StageElu

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Layers Cert.Gcn Cert.Lib.HostStages

/-- The edge sum with the reference's own dimension records. -/
abbrev edges (rows cols : IVec S1600000 32) (vals : FVec Ideal S1600000 .f32) (y : FVec Ideal S100000x128 .f32) : FVec Ideal S100000x128 .f32 :=
  edgeSum (e := 1600000) (n := 100000) (d := 128) gather_S100000x128_S1600000x1_S1600000x128_1_0_n_n_0_1_1128
    scatter_S100000x128_S1600000x1_S1600000x128_1_0_0_1 bcast_S1600000_S1600000x1_0 bcast_S_S1600000
    bcast_S1600000x1_S1600000x128_0_1 bcast_S_S100000x128 100000#32 rows cols vals y

/-- The result buffer after the whole line: the seven stretches read back in turn, last first — each stretch's result
    is its function of what the stretch before left, and a buffer a stretch does not write passes through it —, which
    is the network's function of the arguments. -/
theorem out_eq (V : Valuation τ sig (Elt Ideal)) :
    after ops V (Proc.devRef .tc main_v44)
      = gcnOut (n := 100000) (f := 256) (h := 128) (p := 200) (q := 40)
          (edges (V (main_arg9 : DevRef τ sig)) (V (main_arg10 : DevRef τ sig)) (V (main_arg11 : DevRef τ sig)))
          (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_ops]
  rw [S4_out]
  rw [E3_out, E3_keep _ main_arg7 (by decide), E3_keep _ main_arg8 (by decide)]
  rw [S3_out, S3_keep _ main_arg7 (by decide), S3_keep _ main_arg8 (by decide)]
  rw [E2_out, E2_keep _ main_arg5 (by decide), E2_keep _ main_arg6 (by decide), E2_keep _ main_arg7 (by decide), E2_keep _ main_arg8 (by decide)]
  rw [S2_out, S2_keep _ main_arg5 (by decide), S2_keep _ main_arg6 (by decide), S2_keep _ main_arg7 (by decide), S2_keep _ main_arg8 (by decide)]
  rw [E1_out, E1_keep _ main_arg9 (by decide), E1_keep _ main_arg10 (by decide), E1_keep _ main_arg11 (by decide), E1_keep _ main_arg3 (by decide), E1_keep _ main_arg4 (by decide), E1_keep _ main_arg5 (by decide), E1_keep _ main_arg6 (by decide), E1_keep _ main_arg7 (by decide), E1_keep _ main_arg8 (by decide)]
  rw [S1_out, S1_keep _ main_arg9 (by decide), S1_keep _ main_arg10 (by decide), S1_keep _ main_arg11 (by decide), S1_keep _ main_arg3 (by decide), S1_keep _ main_arg4 (by decide), S1_keep _ main_arg5 (by decide), S1_keep _ main_arg6 (by decide), S1_keep _ main_arg7 (by decide), S1_keep _ main_arg8 (by decide)]
  rfl

/-- A buffer no stretch writes keeps its contents through the whole line. -/
theorem line_keep (V : Valuation τ sig (Elt Ideal)) (r : Ref sig .tc) (h1 : r ∉ opsS1_W) (h2 : r ∉ opsE1_W) (h3 : r ∉ opsS2_W)
    (h4 : r ∉ opsE2_W) (h5 : r ∉ opsS3_W) (h6 : r ∉ opsE3_W) (h7 : r ∉ opsS4_W) :
    after ops V (Proc.devRef .tc r) = V (Proc.devRef .tc r) := by
  rw [after_ops, S4_keep _ r h7, E3_keep _ r h6, S3_keep _ r h5, E2_keep _ r h4, S2_keep _ r h3, E1_keep _ r h2, S1_keep _ r h1]

/-- The reference: every weakly fair execution terminates with the result at the network's function of the arguments,
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
        = gcnOut (n := 100000) (f := 256) (h := 128) (p := 200) (q := 40)
            (edges (m ((c.tc : Thread nD τ).loc main_arg9)) (m ((c.tc : Thread nD τ).loc main_arg10)) (m ((c.tc : Thread nD τ).loc main_arg11)))
            (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v44).trans (out_eq (launchContents m c)),
      (h c main_arg0).trans (line_keep _ main_arg0 (by decide) (by decide) (by decide) (by decide) (by decide) (by decide) (by decide)),
      (h c main_arg1).trans (line_keep _ main_arg1 (by decide) (by decide) (by decide) (by decide) (by decide) (by decide) (by decide)),
      (h c main_arg2).trans (line_keep _ main_arg2 (by decide) (by decide) (by decide) (by decide) (by decide) (by decide) (by decide)),
      (h c main_arg3).trans (line_keep _ main_arg3 (by decide) (by decide) (by decide) (by decide) (by decide) (by decide) (by decide)),
      (h c main_arg4).trans (line_keep _ main_arg4 (by decide) (by decide) (by decide) (by decide) (by decide) (by decide) (by decide)),
      (h c main_arg5).trans (line_keep _ main_arg5 (by decide) (by decide) (by decide) (by decide) (by decide) (by decide) (by decide)),
      (h c main_arg6).trans (line_keep _ main_arg6 (by decide) (by decide) (by decide) (by decide) (by decide) (by decide) (by decide)),
      (h c main_arg7).trans (line_keep _ main_arg7 (by decide) (by decide) (by decide) (by decide) (by decide) (by decide) (by decide)),
      (h c main_arg8).trans (line_keep _ main_arg8 (by decide) (by decide) (by decide) (by decide) (by decide) (by decide) (by decide)),
      (h c main_arg9).trans (line_keep _ main_arg9 (by decide) (by decide) (by decide) (by decide) (by decide) (by decide) (by decide)),
      (h c main_arg10).trans (line_keep _ main_arg10 (by decide) (by decide) (by decide) (by decide) (by decide) (by decide) (by decide)),
      (h c main_arg11).trans (line_keep _ main_arg11 (by decide) (by decide) (by decide) (by decide) (by decide) (by decide) (by decide))⟩)
    (run_line m ρ)

end Cert.ReferenceIdeal.Hand

end
-- ==== Proof.lean ====
/-
  A two-layer graph convolution with a two-layer dense head: the tiled kernel program against the plain reference, on the extended reals.

  Both programs compute, for node features x, an edge list (rows, cols, vals) and the layers' weights and biases,
      h1 = elu (A · (x · W1) + b1),   z = elu (A · (h1 · W2) + b2),   h3 = elu (z · fcW1 + fcb1),   out = h3 · fcW2 + fcb2,
  where A · y is the edge sum: row r of A · y is the sum over the edges (r, c, v) of v * y(c, ·). The kernel program takes the four matrix
  products on the matrix unit, tiled over blocks of 5000 rows (operands cast to a narrower float format first, which is the identity on
  the extended reals; the accumulator starts at zero; the two graph layers pass an all-zero bias, and a + 0 = a), and the two
  bias-and-elu steps of the graph layers in a tile over blocks of 10000 rows; the edge sum it leaves on the host, spelt exactly as the
  reference spells it, so it is carried as one function and never opened. The tile spells elu as  x > 0 ? x : exp (min x 0) - 1,  the
  reference as  x > 0 ? x : 1 * expm1 (x > 0 ? 0 : x):  at every extended real, infinite ones included, both are  x  for 0 < x  and
  exp x - 1  otherwise. No step needs an entry to be finite, so the precondition is never opened.

  The pieces: what each of the six regions leaves in its output array, as a function of the arrays it finds (one module per region);
  the kernel program's run with its result named and that result read back through the run layer by layer; the reference's run with
  its result in the same vocabulary; here the three frames, the (empty) list of idealization rewrites, and the equality of results.
-/
import proofs.«123122_j81329500717148_1_alg».proof.Defs
import proofs.«123122_j81329500717148_1_alg».proof.Proof.Gen.Kernel
import proofs.«123122_j81329500717148_1_alg».proof.Proof.Gen.Kernel.Frame
import proofs.«123122_j81329500717148_1_alg».proof.Proof.Gen.KernelIdeal
import proofs.«123122_j81329500717148_1_alg».proof.Proof.Gen.KernelIdeal.Frame
import proofs.«123122_j81329500717148_1_alg».proof.Proof.Gen.ReferenceIdeal
import proofs.«123122_j81329500717148_1_alg».proof.Proof.Gen.Pre_finite_inputs
import proofs.«123122_j81329500717148_1_alg».proof.Proof.KernelRun
import proofs.«123122_j81329500717148_1_alg».proof.Proof.Chain
import proofs.«123122_j81329500717148_1_alg».proof.Proof.Region0
import proofs.«123122_j81329500717148_1_alg».proof.Proof.Region1
import proofs.«123122_j81329500717148_1_alg».proof.Proof.Region2
import proofs.«123122_j81329500717148_1_alg».proof.Proof.Region3
import proofs.«123122_j81329500717148_1_alg».proof.Proof.Region4
import proofs.«123122_j81329500717148_1_alg».proof.Proof.Region5
import proofs.«123122_j81329500717148_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Hand.run m ρ)

/-- The idealization rewrote nothing. -/
theorem preserves : Cert.preserves_Kernel_KernelIdeal := trivial

/-- From memories that agree on the arguments both programs end with the network's function of those arguments: the kernel program
    by its six regions read back through the run, the reference by its own run; the two edge sums are one function, their
    dimension records being equal field by field. -/
theorem algebraic : Cert.algebraic_KernelIdeal_ReferenceIdeal := by
  intro m ρ m' ρ' _ hagree
  refine ⟨fun c => Cert.Gcn.gcnOut (n := 100000) (f := 256) (h := 128) (p := 200) (q := 40) (Cert.KernelIdeal.Hand.es m c)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Hand.kernel_value m ρ Cert.KernelIdeal.Hand.region0_out
          Cert.KernelIdeal.Hand.region1_out Cert.KernelIdeal.Hand.region2_out Cert.KernelIdeal.Hand.region3_out
          Cert.KernelIdeal.Hand.region4_out Cert.KernelIdeal.Hand.region5_out c), (h c).2⟩)
      (Cert.KernelIdeal.Hand.run_value m ρ)
  · refine (θ_run Cert.ReferenceIdeal.defs _ _).mono (fun _ h c => ⟨(h c).1.trans ?_, (h c).2⟩)
      (Cert.ReferenceIdeal.Hand.run m' ρ')
    obtain ⟨a0, a1, a2, a3, a4, a5, a6, a7, a8, a9, a10, a11⟩ := hagree c
    rw [a0, a1, a2, a3, a4, a5, a6, a7, a8, a9, a10, a11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
